-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x100 : Shape := ⟨2, ![128, 100]⟩
abbrev S100 : Shape := ⟨1, ![100]⟩
abbrev S100x16 : Shape := ⟨2, ![100, 16]⟩
abbrev S16 : Shape := ⟨1, ![16]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x16 : S_.BroadcastsInDim S100x16 (![] : Fin 0 → Fin S100x16.rank)
  reducesTo_S100x16_S_d0_1 : S100x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S100x16 1) : IVec S_ 1 :=
  let main_c_5 : IVec S_ 1 := constantI S_ 1 1#1
  let main_v17 : IVec S_ 1 := (fun x v => Host.reduce IntOp.andi x v reducesTo_S100x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : FVec F S128x100 .f32) (main_arg2 : FVec F S100 .f32) (main_arg3 : FVec F S100x16 .f32) (main_arg4 : FVec F S16 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg1
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x16 .f32 := Host.absf main_arg3
  let main_cst_4 : FVec F S_ .f32 := constant S_ .f32 0x7F800000#32
  let main_v15 : FVec F S100x16 .f32 := broadcastInDim S100x16 ![] bcast_S_S100x16 main_cst_4
  let main_v16 : IVec S100x16 1 := cmpf .olt main_v14 main_v15
  fn_part1 (F := F) main_arg4 main_v13 main_v16
-- ==== Kernel.lean ====
abbrev S50000x128 : Shape := ⟨2, ![50000, 128]⟩
abbrev S128x100 : Shape := ⟨2, ![128, 100]⟩
abbrev S100 : Shape := ⟨1, ![100]⟩
abbrev S100x16 : Shape := ⟨2, ![100, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x100 : Shape := ⟨2, ![50000, 100]⟩
abbrev S5000x128 : Shape := ⟨2, ![5000, 128]⟩
abbrev S5000x100 : Shape := ⟨2, ![5000, 100]⟩
abbrev S850000x100 : Shape := ⟨2, ![850000, 100]⟩
abbrev S1x100 : Shape := ⟨2, ![1, 100]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 88
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x100, .f32⟩
  | .hbm, ⟨2, _⟩ => ⟨S100, .f32⟩
  | .hbm, ⟨3, _⟩ => ⟨S100x16, .f32⟩
  | .hbm, ⟨4, _⟩ => ⟨S16, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x100, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x100, .f32⟩
  | .hbm, ⟨56, _⟩ => ⟨S850000x1, .f32⟩
  | .hbm, ⟨57, _⟩ => ⟨S850000x100, .f32⟩
  | .hbm, ⟨58, _⟩ => ⟨S850000x100, .f32⟩
  | .hbm, ⟨59, _⟩ => ⟨S_, .f32⟩
  | .hbm, ⟨60, _⟩ => ⟨S50000x100, .f32⟩
  | .hbm, ⟨61, _⟩ => ⟨S850000x1, .i32⟩
  | .hbm, ⟨62, _⟩ => ⟨S50000x100, .f32⟩
  | .hbm, ⟨63, _⟩ => ⟨S1x100, .f32⟩
  | .hbm, ⟨64, _⟩ => ⟨S50000x100, .f32⟩
  | .hbm, ⟨65, _⟩ => ⟨S50000x100, .f32⟩
  | .hbm, ⟨66, _⟩ => ⟨S50000x100, .f32⟩
  | .hbm, ⟨67, _⟩ => ⟨S50000x16, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x16, .f32⟩
  | .hbm, ⟨77, _⟩ => ⟨S850000x1, .f32⟩
  | .hbm, ⟨78, _⟩ => ⟨S850000x16, .f32⟩
  | .hbm, ⟨79, _⟩ => ⟨S850000x16, .f32⟩
  | .hbm, ⟨80, _⟩ => ⟨S_, .f32⟩
  | .hbm, ⟨81, _⟩ => ⟨S50000x16, .f32⟩
  | .hbm, ⟨82, _⟩ => ⟨S850000x1, .i32⟩
  | .hbm, ⟨83, _⟩ => ⟨S50000x16, .f32⟩
  | .hbm, ⟨84, _⟩ => ⟨S1x16, .f32⟩
  | .hbm, ⟨85, _⟩ => ⟨S50000x16, .f32⟩
  | .hbm, ⟨86, _⟩ => ⟨S50000x16, .f32⟩
  | .hbm, ⟨87, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S100x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S5000x100_S5000x100_0_0 : ∀ a, (![0, 0] : Fin 2 → Nat) a + S5000x100.size a ≤ S5000x100.size a
  h_S5000x100 : 0 < S5000x100.numel
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  shapeCasts_S5000x100_S5000x100 : S5000x100.ShapeCasts S5000x100
  inb_S100x16_S100x16_0_0 : ∀ a, (![0, 0] : Fin 2 → Nat) a + S100x16.size a ≤ S100x16.size a
  h_S100x16 : 0 < S100x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x100_S5000x100_1_0_0_1_n_n_wf : DotDims.WF S5000x128 S128x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S5000x100_S100x16_S5000x16_1_0_0_1_n_n_wf : DotDims.WF S5000x100 S100x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S50000x100.size a
  hwx0_2 : ∀ i : grid0.Coords, EltTy.bits .f32 = 32 ∨ (Rect.block (s := S50000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x16.size a ≤ S100x16.size a
  hwx2_1 : ∀ i : grid2.Coords, EltTy.bits .f32 = 32 ∨ (Rect.block (s := S100x16) S100x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S50000x16.size a
  hwx3_1 : ∀ i : grid3.Coords, EltTy.bits .f32 = 32 ∨ (Rect.block (s := S50000x16) S5000x16.size (cc3_transform_1 i) (hinb3_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S5000x100_S100x16_S5000x16_1_0_0_1_n_n : DotDims S5000x100 S100x16 S5000x16 where
  lhsContracting := [1]
  rhsContracting := [0]
  lhsNonContracting := [0]
  rhsNonContracting := [1]
  lhsBatch := []
  rhsBatch := []
  wf := dot_S5000x100_S100x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x100.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v47) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S100x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x16.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x100 : Shape := ⟨2, ![128, 100]⟩
abbrev S100 : Shape := ⟨1, ![100]⟩
abbrev S100x16 : Shape := ⟨2, ![100, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S50000x100 : Shape := ⟨2, ![50000, 100]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S128x100, .f32⟩
  | 2 => ⟨S100, .f32⟩
  | 3 => ⟨S100x16, .f32⟩
  | 4 => ⟨S16, .f32⟩
  | 5 => ⟨S2x800000, .i32⟩
  | 6 => ⟨S1x800000, .i32⟩
  | 7 => ⟨S800000, .i32⟩
  | 8 => ⟨S1x800000, .i32⟩
  | 9 => ⟨S800000, .i32⟩
  | 10 => ⟨S50000x100, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x100, .f32⟩
  | 56 => ⟨S850000x1, .f32⟩
  | 57 => ⟨S850000x100, .f32⟩
  | 58 => ⟨S850000x100, .f32⟩
  | 59 => ⟨S_, .f32⟩
  | 60 => ⟨S50000x100, .f32⟩
  | 61 => ⟨S850000x1, .i32⟩
  | 62 => ⟨S50000x100, .f32⟩
  | 63 => ⟨S1x100, .f32⟩
  | 64 => ⟨S50000x100, .f32⟩
  | 65 => ⟨S50000x100, .f32⟩
  | 66 => ⟨S_, .f32⟩
  | 67 => ⟨S_, .f32⟩
  | 68 => ⟨S50000x100, .f32⟩
  | 69 => ⟨S50000x100, .i1⟩
  | 70 => ⟨S_, .f32⟩
  | 71 => ⟨S50000x100, .f32⟩
  | 72 => ⟨S50000x100, .f32⟩
  | 73 => ⟨S50000x100, .f32⟩
  | 74 => ⟨S50000x16, .f32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x16, .f32⟩
  | 120 => ⟨S850000x1, .f32⟩
  | 121 => ⟨S850000x16, .f32⟩
  | 122 => ⟨S850000x16, .f32⟩
  | 123 => ⟨S_, .f32⟩
  | 124 => ⟨S50000x16, .f32⟩
  | 125 => ⟨S850000x1, .i32⟩
  | 126 => ⟨S50000x16, .f32⟩
  | 127 => ⟨S1x16, .f32⟩
  | _ => ⟨S50000x128, .f32⟩

abbrev hbmTy0_1 (i : Nat) : BufTy := match i % 128 with
  | 0 => ⟨S50000x16, .f32⟩
  | 1 => ⟨S50000x16, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x16, .f32⟩
  | 9 => ⟨S50000x16, .f32⟩
  | 10 => ⟨S50000x16, .f32⟩
  | 11 => ⟨S_, .f32⟩
  | 12 => ⟨S50000, .f32⟩
  | 13 => ⟨S50000x1, .f32⟩
  | 14 => ⟨S50000x1, .f32⟩
  | 15 => ⟨S50000x16, .f32⟩
  | 16 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_16 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_c_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v91 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x16_S50000x16_1_0_0_1_n_n_wf : DotDims.WF S50000x100 S100x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x16_S50000x16_1_0_0_1_n_n : DotDims S50000x100 S100x16 S50000x16 where
  lhsContracting := [1]
  rhsContracting := [0]
  lhsNonContracting := [0]
  rhsNonContracting := [1]
  lhsBatch := []
  rhsBatch := []
  wf := dot_S50000x100_S100x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.Spec.lean ====
/-
  The graph-convolution network both programs compute, as ONE function of the argument arrays over the
  extended reals.  Notation: N = 50000 nodes, E = 800000 edges, an edge list e : i32[2, E].

  * ends: row 0 (sources) and row 1 (targets) of the edge list, each followed by the self loops 0 … N-1,
    a vector of E + N node numbers.
  * wrap: a negative node number n is read as n + N (the indexing convention of the gathers).
  * deg = scatter-add of ones at the targets; dinv = rsqrt deg where deg > 0, else 0;
    nrm k = dinv (source k) · dinv (target k).
  * conv y b = scatter-add over the targets of (row (source k) of y) · nrm k, plus the bias row b.
  * layer 1: h = leaky (conv (x · W1) b1), leaky v = v if v ≥ 0 else 0.01 · v (0.01 the f32 literal).
  * layer 2: z = conv (h · W2) b2.
  * result: log-softmax of z along each row: (z - max) - log (Σ exp (z - max)).
-/
import proofs.«113601_j43069932044897_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- Sources: row 0 of the edge list, flattened, then the self loops 0 … N-1. -/
def srcOf (e : IVec S2x800000 32) : IVec S850000 32 :=
  concatenate S850000 0
    [⟨S800000, fun i => shapeCast S800000 (extractStridedSlice S1x800000 ![0, 0] e slices_S2x800000_S1x800000_0_0) shapeCasts_S1x800000_S800000 i⟩,
     ⟨S50000, iotaInDim S50000 32 0⟩] concatenates_S800000_S50000_S850000_d0

/-- Targets: row 1 of the edge list, flattened, then the self loops 0 … N-1. -/
def dstOf (e : IVec S2x800000 32) : IVec S850000 32 :=
  concatenate S850000 0
    [⟨S800000, fun i => shapeCast S800000 (extractStridedSlice S1x800000 ![1, 0] e slices_S2x800000_S1x800000_1_0) shapeCasts_S1x800000_S800000 i⟩,
     ⟨S50000, iotaInDim S50000 32 0⟩] concatenates_S800000_S50000_S850000_d0

/-- A node number as a gather index: a negative one is read N higher; as a column. -/
def wrapIdx (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The node degrees: ones scatter-added at the targets. -/
def degOf (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- deg^(-1/2) where the degree is positive, 0 elsewhere. -/
def dinvOf (deg : FVec Ideal S50000 .f32) : FVec Ideal S50000 .f32 :=
  select (cmpf .ogt deg (broadcastInDim S50000 ![] bcast_S_S50000 (constant (F := Ideal) S_ .f32 0x00000000#32)))
    (Host.rsqrt deg)
    (broadcastInDim S50000 ![] bcast_S_S50000 (id (constant (F := Ideal) S_ .f32 0x00000000#32)))

/-- The symmetric normalisation of every edge: dinv (source) · dinv (target). -/
def nrmOf (s d : IVec S850000 32) : FVec Ideal S850000 .f32 :=
  mulf (Host.gather gather_S50000_S850000x1_S850000_n_0_n_n_0_1_1 (dinvOf (degOf d)) (wrapIdx s))
       (Host.gather gather_S50000_S850000x1_S850000_n_0_n_n_0_1_1 (dinvOf (degOf d)) (wrapIdx d))

/-- One propagation at width 100: gather the source rows, scale by the edge weight, scatter-add at the targets, add the bias. -/
def conv100 (y : FVec Ideal S50000x100 .f32) (b : FVec Ideal S100 .f32) (s d : IVec S850000 32) (nrm : FVec Ideal S850000 .f32) :
    FVec Ideal S50000x100 .f32 :=
  addf
    (Host.scatterAdd scatter_S50000x100_S850000x1_S850000x100_1_0_0_1
      (broadcastInDim S50000x100 ![] bcast_S_S50000x100 (constant (F := Ideal) S_ .f32 0x00000000#32))
      (broadcastInDim S850000x1 ![0] bcast_S850000_S850000x1_0 d)
      (mulf (Host.gather gather_S50000x100_S850000x1_S850000x100_1_0_n_n_0_1_1100 y (wrapIdx s))
        (broadcastInDim S850000x100 ![0, 1] bcast_S850000x1_S850000x100_0_1
          (broadcastInDim S850000x1 ![0] bcast_S850000_S850000x1_0 nrm))))
    (broadcastInDim S50000x100 ![0, 1] bcast_S1x100_S50000x100_0_1 (broadcastInDim S1x100 ![1] bcast_S100_S1x100_1 b))

/-- The same propagation at width 16. -/
def conv16 (y : FVec Ideal S50000x16 .f32) (b : FVec Ideal S16 .f32) (s d : IVec S850000 32) (nrm : FVec Ideal S850000 .f32) :
    FVec Ideal S50000x16 .f32 :=
  addf
    (Host.scatterAdd scatter_S50000x16_S850000x1_S850000x16_1_0_0_1
      (broadcastInDim S50000x16 ![] bcast_S_S50000x16 (constant (F := Ideal) S_ .f32 0x00000000#32))
      (broadcastInDim S850000x1 ![0] bcast_S850000_S850000x1_0 d)
      (mulf (Host.gather gather_S50000x16_S850000x1_S850000x16_1_0_n_n_0_1_116 y (wrapIdx s))
        (broadcastInDim S850000x16 ![0, 1] bcast_S850000x1_S850000x16_0_1
          (broadcastInDim S850000x1 ![0] bcast_S850000_S850000x1_0 nrm))))
    (broadcastInDim S50000x16 ![0, 1] bcast_S1x16_S50000x16_0_1 (broadcastInDim S1x16 ![1] bcast_S16_S1x16_1 b))

/-- The two dense products, as whole-array contractions. -/
def dense1 (x : FVec Ideal S50000x128 .f32) (w : FVec Ideal S128x100 .f32) : FVec Ideal S50000x100 .f32 :=
  Host.dotGeneral dot_S50000x128_S128x100_S50000x100_1_0_0_1_n_n none x w
def dense2 (h : FVec Ideal S50000x100 .f32) (w : FVec Ideal S100x16 .f32) : FVec Ideal S50000x16 .f32 :=
  Host.dotGeneral dot_S50000x100_S100x16_S50000x16_1_0_0_1_n_n none h w

/-- v where v ≥ 0, else 0.01 · v. -/
def leaky (h : FVec Ideal S50000x100 .f32) : FVec Ideal S50000x100 .f32 :=
  select (cmpf .oge h (broadcastInDim S50000x100 ![] bcast_S_S50000x100 (constant (F := Ideal) S_ .f32 0x00000000#32)))
    h
    (mulf (broadcastInDim S50000x100 ![] bcast_S_S50000x100 (id (constant (F := Ideal) S_ .f32 0x3C23D70A#32))) h)

/-- The row maxima (from -∞), as a column broadcast along the rows. -/
def rowMax (z : FVec Ideal S50000x16 .f32) : FVec Ideal S50000x16 .f32 :=
  broadcastInDim S50000x16 ![0, 1] bcast_S50000x1_S50000x16_0_1
    (broadcastInDim S50000x1 ![0] bcast_S50000_S50000x1_0
      (maximumf (broadcastInDim S50000 ![] bcast_S_S50000 (constant (F := Ideal) S_ .f32 0xFF800000#32))
        (Host.reduce FloatOps.maximumf z (constant (F := Ideal) S_ .f32 0xFF800000#32) reducesTo_S50000x16_S50000_d1 h_S_)))

/-- Row-wise log-softmax: (z - max) - log Σ exp (z - max). -/
def logsm (z : FVec Ideal S50000x16 .f32) : FVec Ideal S50000x16 .f32 :=
  subf (subf z (rowMax z))
    (broadcastInDim S50000x16 ![0, 1] bcast_S50000x1_S50000x16_0_1
      (Host.log (broadcastInDim S50000x1 ![0] bcast_S50000_S50000x1_0
        (Host.reduceAdd (Host.exp (subf z (rowMax z))) (constant (F := Ideal) S_ .f32 0x00000000#32) reducesTo_S50000x16_S50000_d1 h_S_))))

/-- The whole network. -/
def out (x : FVec Ideal S50000x128 .f32) (w1 : FVec Ideal S128x100 .f32) (b1 : FVec Ideal S100 .f32)
    (w2 : FVec Ideal S100x16 .f32) (b2 : FVec Ideal S16 .f32) (e : IVec S2x800000 32) : FVec Ideal S50000x16 .f32 :=
  logsm (conv16 (dense2 (leaky (conv100 (dense1 x w1) b1 (srcOf e) (dstOf e) (nrmOf (srcOf e) (dstOf e)))) w2) b2
    (srcOf e) (dstOf e) (nrmOf (srcOf e) (dstOf e)))

end Cert.Spec

end
-- ==== Proof.KRun.lean ====
/-
  The kernel program's run with its RESULT named.  @main is nine segments: three stretches of host operations, the
  first product, a stretch, the activation, the second product, a stretch, the row-wise log-softmax.  Every weakly fair
  execution terminates, and each unscoped buffer ends at the fold of those segments over the launch memory; read at the
  result buffer this is the last region's output array, and at an argument it is the launch contents.
-/
import proofs.«113601_j43069932044897_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, at any float instance: the result buffer ends at the ninth boundary's contents, the arguments as launched. -/
theorem run_fold : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KVal

end
-- ==== Proof.KHost.lean ====
/-
  The contents of the kernel program's live buffers at each of its nine segment boundaries, as the network's stages.
  Before the first product the host operations leave the sources, the targets and the edge weights; the first product
  leaves x · W1; the next stretch propagates it over the graph and adds b1; the activation region applies the leaky
  rectifier; the second product multiplies by W2; the next stretch propagates and adds b2; the last region takes the
  row-wise log-softmax.  Each region's output array is taken from a hypothesis (hdense1, hleaky, hdense2, hlogsm) that says
  what the region's write-backs leave, as a whole-array function of the arrays the region finds; those are proved in
  sibling modules.  A buffer no segment writes keeps its contents from boundary to boundary.

  Each stretch of host operations is read once, over an arbitrary valuation X of the buffers it starts from: the buffer a
  stage ends in holds that stage's function of the buffers it read, and the buffers the stretch does not write are kept.
  Stating every step over X keeps a value with several consumers (the node degrees, dinv, the edge weights) from being
  recomputed inside each consumer.
-/
import proofs.«113601_j43069932044897_1_alg».proof.Proof.Spec
import proofs.«113601_j43069932044897_1_alg».proof.Proof.Gen.KernelIdeal.Frame
import proofs.«113601_j43069932044897_1_alg».proof.Proof.Gen.ReferenceIdeal

set_option maxRecDepth 16384

noncomputable section

namespace Cert.KernelIdeal.KVal

open Idealize.ShloMosaic Idealize.ShloMosaic.TcCoe Idealize.SL.Sem
open Cert.KernelIdeal Cert.KernelIdeal.Gen

/-! ## The stages of the degree normalisation, one operation group each -/

/-- Is the degree positive. -/
def posOf (deg : FVec Ideal Cert.ReferenceIdeal.S50000 .f32) : IVec Cert.ReferenceIdeal.S50000 1 :=
  cmpf .ogt deg (broadcastInDim Cert.ReferenceIdeal.S50000 ![] Cert.ReferenceIdeal.Facts₀.bcast_S_S50000 (constant (F := Ideal) Cert.ReferenceIdeal.S_ .f32 0x00000000#32))
/-- deg^(-1/2), everywhere. -/
def rsqOf (deg : FVec Ideal Cert.ReferenceIdeal.S50000 .f32) : FVec Ideal Cert.ReferenceIdeal.S50000 .f32 := Host.rsqrt deg
/-- The select that keeps deg^(-1/2) where the degree is positive and puts the scalar z elsewhere. -/
def dinvSel (p : IVec Cert.ReferenceIdeal.S50000 1) (r : FVec Ideal Cert.ReferenceIdeal.S50000 .f32) (z : FVec Ideal Cert.ReferenceIdeal.S_ .f32) : FVec Ideal Cert.ReferenceIdeal.S50000 .f32 :=
  select p r (broadcastInDim Cert.ReferenceIdeal.S50000 ![] Cert.ReferenceIdeal.Facts₀.bcast_S_S50000 (id z))
/-- The edge weights from dinv: dinv (source) · dinv (target). -/
def nrmSel (dinv : FVec Ideal Cert.ReferenceIdeal.S50000 .f32) (s d : IVec Cert.ReferenceIdeal.S850000 32) : FVec Ideal Cert.ReferenceIdeal.S850000 .f32 :=
  mulf (Host.gather Cert.ReferenceIdeal.gather_S50000_S850000x1_S850000_n_0_n_n_0_1_1 dinv (Cert.Spec.wrapIdx s))
       (Host.gather Cert.ReferenceIdeal.gather_S50000_S850000x1_S850000_n_0_n_n_0_1_1 dinv (Cert.Spec.wrapIdx d))

theorem dinvSel_eq (deg : FVec Ideal Cert.ReferenceIdeal.S50000 .f32) :
    dinvSel (posOf deg) (rsqOf deg) (constant (F := Ideal) Cert.ReferenceIdeal.S_ .f32 0x00000000#32) = Cert.Spec.dinvOf deg := rfl
theorem nrmSel_eq (s d : IVec Cert.ReferenceIdeal.S850000 32) :
    nrmSel (Cert.Spec.dinvOf (Cert.Spec.degOf d)) s d = Cert.Spec.nrmOf s d := rfl

/-! ## The first stretch: sources, targets, degrees, the select's operands -/

attribute [local irreducible] Host.gather Host.scatterAdd concatenate extractStridedSlice shapeCast iotaInDim broadcastInDim Host.rsqrt in
set_option maxHeartbeats 4000000 in
/-- The sources. -/
theorem h0_src (X : Valuation τ sig (Elt Ideal)) :
    StableHlo.after hostOps0 X (Proc.devRef .tc main_v5) = Cert.Spec.srcOf (X (Proc.devRef .tc main_arg5)) := by
  after_results
  rfl

attribute [local irreducible] Host.gather Host.scatterAdd concatenate extractStridedSlice shapeCast iotaInDim broadcastInDim Host.rsqrt in
set_option maxHeartbeats 4000000 in
/-- The targets. -/
theorem h0_dst (X : Valuation τ sig (Elt Ideal)) :
    StableHlo.after hostOps0 X (Proc.devRef .tc main_v6) = Cert.Spec.dstOf (X (Proc.devRef .tc main_arg5)) := by
  after_results
  rfl

attribute [local irreducible] Host.gather Host.scatterAdd concatenate extractStridedSlice shapeCast iotaInDim broadcastInDim Host.rsqrt in
set_option maxHeartbeats 4000000 in
/-- The degrees. -/
theorem h0_deg (X : Valuation τ sig (Elt Ideal)) :
    StableHlo.after hostOps0 X (Proc.devRef .tc main_v10) = Cert.Spec.degOf (Cert.Spec.dstOf (X (Proc.devRef .tc main_arg5))) := by
  after_results
  rfl

attribute [local irreducible] Host.gather Host.scatterAdd concatenate extractStridedSlice shapeCast iotaInDim broadcastInDim Host.rsqrt in
set_option maxHeartbeats 4000000 in
/-- The positivity mask, over the degree buffer. -/
theorem h0_pos (X : Valuation τ sig (Elt Ideal)) :
    StableHlo.after hostOps0 X (Proc.devRef .tc main_v12) = posOf (StableHlo.after hostOps0 X (Proc.devRef .tc main_v10)) := by
  after_results
  rfl

attribute [local irreducible] Host.gather Host.scatterAdd concatenate extractStridedSlice shapeCast iotaInDim broadcastInDim Host.rsqrt in
set_option maxHeartbeats 4000000 in
/-- The reciprocal square roots, over the degree buffer. -/
theorem h0_rsq (X : Valuation τ sig (Elt Ideal)) :
    StableHlo.after hostOps0 X (Proc.devRef .tc main_v13) = rsqOf (StableHlo.after hostOps0 X (Proc.devRef .tc main_v10)) := by
  after_results
  rfl

attribute [local irreducible] Host.gather Host.scatterAdd concatenate extractStridedSlice shapeCast iotaInDim broadcastInDim Host.rsqrt in
set_option maxHeartbeats 4000000 in
/-- The scalar zero. -/
theorem h0_zero (X : Valuation τ sig (Elt Ideal)) :
    StableHlo.after hostOps0 X (Proc.devRef .tc main_cst_2) = (constant (F := Ideal) Cert.ReferenceIdeal.S_ .f32 0x00000000#32 : FVec Ideal Cert.ReferenceIdeal.S_ .f32) := by
  after_results

set_option maxHeartbeats 4000000 in
theorem h0_arg0 (X : Valuation τ sig (Elt Ideal)) : StableHlo.after hostOps0 X (Proc.devRef .tc main_arg0) = X (Proc.devRef .tc main_arg0) := by
  after_results

set_option maxHeartbeats 4000000 in
theorem h0_arg1 (X : Valuation τ sig (Elt Ideal)) : StableHlo.after hostOps0 X (Proc.devRef .tc main_arg1) = X (Proc.devRef .tc main_arg1) := by
  after_results

set_option maxHeartbeats 4000000 in
theorem h0_arg2 (X : Valuation τ sig (Elt Ideal)) : StableHlo.after hostOps0 X (Proc.devRef .tc main_arg2) = X (Proc.devRef .tc main_arg2) := by
  after_results

set_option maxHeartbeats 4000000 in
theorem h0_arg3 (X : Valuation τ sig (Elt Ideal)) : StableHlo.after hostOps0 X (Proc.devRef .tc main_arg3) = X (Proc.devRef .tc main_arg3) := by
  after_results

set_option maxHeartbeats 4000000 in
theorem h0_arg4 (X : Valuation τ sig (Elt Ideal)) : StableHlo.after hostOps0 X (Proc.devRef .tc main_arg4) = X (Proc.devRef .tc main_arg4) := by
  after_results

/-! ## The call that selects dinv -/

attribute [local irreducible] Host.gather Host.scatterAdd concatenate extractStridedSlice shapeCast iotaInDim broadcastInDim Host.rsqrt in
set_option maxHeartbeats 4000000 in
/-- dinv, as the select of its operands. -/
theorem h01_dinv (X : Valuation τ sig (Elt Ideal)) :
    StableHlo.after hostOps0_1 X (Proc.devRef .tc main_v14) = dinvSel (X (Proc.devRef .tc main_v12)) (X (Proc.devRef .tc main_v13)) (X (Proc.devRef .tc main_cst_2)) := by
  after_results
  rfl

set_option maxHeartbeats 4000000 in
theorem h01_src (X : Valuation τ sig (Elt Ideal)) : StableHlo.after hostOps0_1 X (Proc.devRef .tc main_v5) = X (Proc.devRef .tc main_v5) := by
  after_results

set_option maxHeartbeats 4000000 in
theorem h01_dst (X : Valuation τ sig (Elt Ideal)) : StableHlo.after hostOps0_1 X (Proc.devRef .tc main_v6) = X (Proc.devRef .tc main_v6) := by
  after_results

set_option maxHeartbeats 4000000 in
theorem h01_arg0 (X : Valuation τ sig (Elt Ideal)) : StableHlo.after hostOps0_1 X (Proc.devRef .tc main_arg0) = X (Proc.devRef .tc main_arg0) := by
  after_results

set_option maxHeartbeats 4000000 in
theorem h01_arg1 (X : Valuation τ sig (Elt Ideal)) : StableHlo.after hostOps0_1 X (Proc.devRef .tc main_arg1) = X (Proc.devRef .tc main_arg1) := by
  after_results

set_option maxHeartbeats 4000000 in
theorem h01_arg2 (X : Valuation τ sig (Elt Ideal)) : StableHlo.after hostOps0_1 X (Proc.devRef .tc main_arg2) = X (Proc.devRef .tc main_arg2) := by
  after_results

set_option maxHeartbeats 4000000 in
theorem h01_arg3 (X : Valuation τ sig (Elt Ideal)) : StableHlo.after hostOps0_1 X (Proc.devRef .tc main_arg3) = X (Proc.devRef .tc main_arg3) := by
  after_results

set_option maxHeartbeats 4000000 in
theorem h01_arg4 (X : Valuation τ sig (Elt Ideal)) : StableHlo.after hostOps0_1 X (Proc.devRef .tc main_arg4) = X (Proc.devRef .tc main_arg4) := by
  after_results

/-! ## The third stretch: the edge weights -/

attribute [local irreducible] Host.gather Host.scatterAdd concatenate extractStridedSlice shapeCast iotaInDim broadcastInDim Host.rsqrt in
set_option maxHeartbeats 4000000 in
/-- The edge weights, from dinv and the two ends. -/
theorem h02_nrm (X : Valuation τ sig (Elt Ideal)) :
    StableHlo.after hostOps0_2 X (Proc.devRef .tc main_v29) = nrmSel (X (Proc.devRef .tc main_v14)) (X (Proc.devRef .tc main_v5)) (X (Proc.devRef .tc main_v6)) := by
  after_results
  rfl

set_option maxHeartbeats 4000000 in
theorem h02_src (X : Valuation τ sig (Elt Ideal)) : StableHlo.after hostOps0_2 X (Proc.devRef .tc main_v5) = X (Proc.devRef .tc main_v5) := by
  after_results

set_option maxHeartbeats 4000000 in
theorem h02_dst (X : Valuation τ sig (Elt Ideal)) : StableHlo.after hostOps0_2 X (Proc.devRef .tc main_v6) = X (Proc.devRef .tc main_v6) := by
  after_results

set_option maxHeartbeats 4000000 in
theorem h02_arg0 (X : Valuation τ sig (Elt Ideal)) : StableHlo.after hostOps0_2 X (Proc.devRef .tc main_arg0) = X (Proc.devRef .tc main_arg0) := by
  after_results

set_option maxHeartbeats 4000000 in
theorem h02_arg1 (X : Valuation τ sig (Elt Ideal)) : StableHlo.after hostOps0_2 X (Proc.devRef .tc main_arg1) = X (Proc.devRef .tc main_arg1) := by
  after_results

set_option maxHeartbeats 4000000 in
theorem h02_arg2 (X : Valuation τ sig (Elt Ideal)) : StableHlo.after hostOps0_2 X (Proc.devRef .tc main_arg2) = X (Proc.devRef .tc main_arg2) := by
  after_results

set_option maxHeartbeats 4000000 in
theorem h02_arg3 (X : Valuation τ sig (Elt Ideal)) : StableHlo.after hostOps0_2 X (Proc.devRef .tc main_arg3) = X (Proc.devRef .tc main_arg3) := by
  after_results

set_option maxHeartbeats 4000000 in
theorem h02_arg4 (X : Valuation τ sig (Elt Ideal)) : StableHlo.after hostOps0_2 X (Proc.devRef .tc main_arg4) = X (Proc.devRef .tc main_arg4) := by
  after_results

/-! ## The two propagations -/

attribute [local irreducible] Host.gather Host.scatterAdd concatenate extractStridedSlice shapeCast iotaInDim broadcastInDim Host.rsqrt in
set_option maxHeartbeats 4000000 in
/-- The first propagation. -/
theorem h1_agg (X : Valuation τ sig (Elt Ideal)) :
    StableHlo.after hostOps1 X (Proc.devRef .tc main_v46) = Cert.Spec.conv100 (X (Proc.devRef .tc main_v30)) (X (Proc.devRef .tc main_arg2)) (X (Proc.devRef .tc main_v5)) (X (Proc.devRef .tc main_v6)) (X (Proc.devRef .tc main_v29)) := by
  after_results
  rfl

set_option maxHeartbeats 4000000 in
theorem h1_src (X : Valuation τ sig (Elt Ideal)) : StableHlo.after hostOps1 X (Proc.devRef .tc main_v5) = X (Proc.devRef .tc main_v5) := by
  after_results

set_option maxHeartbeats 4000000 in
theorem h1_dst (X : Valuation τ sig (Elt Ideal)) : StableHlo.after hostOps1 X (Proc.devRef .tc main_v6) = X (Proc.devRef .tc main_v6) := by
  after_results

set_option maxHeartbeats 4000000 in
theorem h1_nrm (X : Valuation τ sig (Elt Ideal)) : StableHlo.after hostOps1 X (Proc.devRef .tc main_v29) = X (Proc.devRef .tc main_v29) := by
  after_results

set_option maxHeartbeats 4000000 in
theorem h1_arg3 (X : Valuation τ sig (Elt Ideal)) : StableHlo.after hostOps1 X (Proc.devRef .tc main_arg3) = X (Proc.devRef .tc main_arg3) := by
  after_results

set_option maxHeartbeats 4000000 in
theorem h1_arg4 (X : Valuation τ sig (Elt Ideal)) : StableHlo.after hostOps1 X (Proc.devRef .tc main_arg4) = X (Proc.devRef .tc main_arg4) := by
  after_results

attribute [local irreducible] Host.gather Host.scatterAdd concatenate extractStridedSlice shapeCast iotaInDim broadcastInDim Host.rsqrt in
set_option maxHeartbeats 4000000 in
/-- The second propagation. -/
theorem h3_agg (X : Valuation τ sig (Elt Ideal)) :
    StableHlo.after hostOps3 X (Proc.devRef .tc main_v64) = Cert.Spec.conv16 (X (Proc.devRef .tc main_v48)) (X (Proc.devRef .tc main_arg4)) (X (Proc.devRef .tc main_v5)) (X (Proc.devRef .tc main_v6)) (X (Proc.devRef .tc main_v29)) := by
  after_results
  rfl

/-! ## The boundaries -/

variable (m : (ℓ : Loc nD τ sig) → Buf (Elt Ideal) ℓ) (ρ : Dev nD → PrngReg) (c : Dev nD)

theorem src3 : W3 (F := Ideal) m ρ c (Proc.devRef .tc main_v5) = Cert.Spec.srcOf (m ((c.tc : Thread nD τ).loc main_arg5)) :=
  (h02_src _).trans ((h01_src _).trans (h0_src _))
theorem dst3 : W3 (F := Ideal) m ρ c (Proc.devRef .tc main_v6) = Cert.Spec.dstOf (m ((c.tc : Thread nD τ).loc main_arg5)) :=
  (h02_dst _).trans ((h01_dst _).trans (h0_dst _))
/-- dinv after the select. -/
theorem dinv2 : W2 (F := Ideal) m ρ c (Proc.devRef .tc main_v14) = Cert.Spec.dinvOf (Cert.Spec.degOf (Cert.Spec.dstOf (m ((c.tc : Thread nD τ).loc main_arg5)))) := by
  refine (h01_dinv _).trans ?_
  show dinvSel (StableHlo.after hostOps0 (W0 m ρ c) (Proc.devRef .tc main_v12)) (StableHlo.after hostOps0 (W0 m ρ c) (Proc.devRef .tc main_v13))
    (StableHlo.after hostOps0 (W0 m ρ c) (Proc.devRef .tc main_cst_2)) = _
  rw [h0_pos, h0_rsq, h0_zero, h0_deg]
  exact dinvSel_eq _
theorem src2 : W2 (F := Ideal) m ρ c (Proc.devRef .tc main_v5) = Cert.Spec.srcOf (m ((c.tc : Thread nD τ).loc main_arg5)) := (h01_src _).trans (h0_src _)
theorem dst2 : W2 (F := Ideal) m ρ c (Proc.devRef .tc main_v6) = Cert.Spec.dstOf (m ((c.tc : Thread nD τ).loc main_arg5)) := (h01_dst _).trans (h0_dst _)
/-- The edge weights at the first region's entry. -/
theorem nrm3 : W3 (F := Ideal) m ρ c (Proc.devRef .tc main_v29) = Cert.Spec.nrmOf (Cert.Spec.srcOf (m ((c.tc : Thread nD τ).loc main_arg5))) (Cert.Spec.dstOf (m ((c.tc : Thread nD τ).loc main_arg5))) := by
  refine (h02_nrm _).trans ?_
  show nrmSel (W2 m ρ c (Proc.devRef .tc main_v14)) (W2 m ρ c (Proc.devRef .tc main_v5)) (W2 m ρ c (Proc.devRef .tc main_v6)) = _
  rw [dinv2, src2, dst2]
  exact nrmSel_eq _ _
theorem arg3_0 : W3 (F := Ideal) m ρ c (Proc.devRef .tc main_arg0) = (m ((c.tc : Thread nD τ).loc main_arg0)) :=
  (h02_arg0 _).trans ((h01_arg0 _).trans (h0_arg0 _))
theorem arg3_1 : W3 (F := Ideal) m ρ c (Proc.devRef .tc main_arg1) = (m ((c.tc : Thread nD τ).loc main_arg1)) :=
  (h02_arg1 _).trans ((h01_arg1 _).trans (h0_arg1 _))
theorem arg3_2 : W3 (F := Ideal) m ρ c (Proc.devRef .tc main_arg2) = (m ((c.tc : Thread nD τ).loc main_arg2)) :=
  (h02_arg2 _).trans ((h01_arg2 _).trans (h0_arg2 _))
theorem arg3_3 : W3 (F := Ideal) m ρ c (Proc.devRef .tc main_arg3) = (m ((c.tc : Thread nD τ).loc main_arg3)) :=
  (h02_arg3 _).trans ((h01_arg3 _).trans (h0_arg3 _))
theorem arg3_4 : W3 (F := Ideal) m ρ c (Proc.devRef .tc main_arg4) = (m ((c.tc : Thread nD τ).loc main_arg4)) :=
  (h02_arg4 _).trans ((h01_arg4 _).trans (h0_arg4 _))

section Regions

variable
  (hdense1 : ∀ (V : (c : Dev nD) → (b : Ref sig .tc) → Buf (Elt Ideal) ((c : Thread nD τ).loc b)) (c : Dev nD),
    (dat0 (F := Ideal) V c).arrAt 2 cfg0.N = Cert.Spec.dense1 (V c main_arg0) (V c main_arg1))
  (hleaky : ∀ (V : (c : Dev nD) → (b : Ref sig .tc) → Buf (Elt Ideal) ((c : Thread nD τ).loc b)) (c : Dev nD),
    (dat1 (F := Ideal) V c).arrAt 1 cfg1.N = Cert.Spec.leaky (V c main_v46))
  (hdense2 : ∀ (V : (c : Dev nD) → (b : Ref sig .tc) → Buf (Elt Ideal) ((c : Thread nD τ).loc b)) (c : Dev nD),
    (dat2 (F := Ideal) V c).arrAt 2 cfg2.N = Cert.Spec.dense2 (V c main_v47) (V c main_arg3))
  (hlogsm : ∀ (V : (c : Dev nD) → (b : Ref sig .tc) → Buf (Elt Ideal) ((c : Thread nD τ).loc b)) (c : Dev nD),
    (dat3 (F := Ideal) V c).arrAt 1 cfg3.N = Cert.Spec.logsm (V c main_v64))

include hdense1 in
/-- After the first product: x · W1. -/
theorem xw4 : W4 (F := Ideal) m ρ c (Proc.devRef .tc main_v30)
    = Cert.Spec.dense1 (m ((c.tc : Thread nD τ).loc main_arg0)) (m ((c.tc : Thread nD τ).loc main_arg1)) := by
  refine (W4_arr m ρ c 2).trans ((hdense1 (V3 m ρ) c).trans ?_)
  show Cert.Spec.dense1 (W3 m ρ c (Proc.devRef .tc main_arg0)) (W3 m ρ c (Proc.devRef .tc main_arg1)) = _
  rw [arg3_0, arg3_1]

theorem keep4_src : W4 (F := Ideal) m ρ c (Proc.devRef .tc main_v5) = W3 m ρ c (Proc.devRef .tc main_v5) := W4_of_ne m ρ c main_v5 (by decide)
theorem keep4_dst : W4 (F := Ideal) m ρ c (Proc.devRef .tc main_v6) = W3 m ρ c (Proc.devRef .tc main_v6) := W4_of_ne m ρ c main_v6 (by decide)
theorem keep4_nrm : W4 (F := Ideal) m ρ c (Proc.devRef .tc main_v29) = W3 m ρ c (Proc.devRef .tc main_v29) := W4_of_ne m ρ c main_v29 (by decide)
theorem keep4_arg2 : W4 (F := Ideal) m ρ c (Proc.devRef .tc main_arg2) = W3 m ρ c (Proc.devRef .tc main_arg2) := W4_of_ne m ρ c main_arg2 (by decide)
theorem keep4_arg3 : W4 (F := Ideal) m ρ c (Proc.devRef .tc main_arg3) = W3 m ρ c (Proc.devRef .tc main_arg3) := W4_of_ne m ρ c main_arg3 (by decide)
theorem keep4_arg4 : W4 (F := Ideal) m ρ c (Proc.devRef .tc main_arg4) = W3 m ρ c (Proc.devRef .tc main_arg4) := W4_of_ne m ρ c main_arg4 (by decide)

/-- The first propagation, over the boundary before it. -/
theorem agg5 : W5 (F := Ideal) m ρ c (Proc.devRef .tc main_v46)
    = Cert.Spec.conv100 (W4 m ρ c (Proc.devRef .tc main_v30)) (W4 m ρ c (Proc.devRef .tc main_arg2)) (W4 m ρ c (Proc.devRef .tc main_v5)) (W4 m ρ c (Proc.devRef .tc main_v6)) (W4 m ρ c (Proc.devRef .tc main_v29)) :=
  h1_agg _

theorem keep5_src : W5 (F := Ideal) m ρ c (Proc.devRef .tc main_v5) = W4 m ρ c (Proc.devRef .tc main_v5) := h1_src _
theorem keep5_dst : W5 (F := Ideal) m ρ c (Proc.devRef .tc main_v6) = W4 m ρ c (Proc.devRef .tc main_v6) := h1_dst _
theorem keep5_nrm : W5 (F := Ideal) m ρ c (Proc.devRef .tc main_v29) = W4 m ρ c (Proc.devRef .tc main_v29) := h1_nrm _
theorem keep5_arg3 : W5 (F := Ideal) m ρ c (Proc.devRef .tc main_arg3) = W4 m ρ c (Proc.devRef .tc main_arg3) := h1_arg3 _
theorem keep5_arg4 : W5 (F := Ideal) m ρ c (Proc.devRef .tc main_arg4) = W4 m ρ c (Proc.devRef .tc main_arg4) := h1_arg4 _

include hleaky in
/-- After the activation region. -/
theorem act6 : W6 (F := Ideal) m ρ c (Proc.devRef .tc main_v47) = Cert.Spec.leaky (W5 m ρ c (Proc.devRef .tc main_v46)) :=
  (W6_arr m ρ c 1).trans (hleaky (V5 m ρ) c)

theorem keep6_src : W6 (F := Ideal) m ρ c (Proc.devRef .tc main_v5) = W5 m ρ c (Proc.devRef .tc main_v5) := W6_of_ne m ρ c main_v5 (by decide)
theorem keep6_dst : W6 (F := Ideal) m ρ c (Proc.devRef .tc main_v6) = W5 m ρ c (Proc.devRef .tc main_v6) := W6_of_ne m ρ c main_v6 (by decide)
theorem keep6_nrm : W6 (F := Ideal) m ρ c (Proc.devRef .tc main_v29) = W5 m ρ c (Proc.devRef .tc main_v29) := W6_of_ne m ρ c main_v29 (by decide)
theorem keep6_arg3 : W6 (F := Ideal) m ρ c (Proc.devRef .tc main_arg3) = W5 m ρ c (Proc.devRef .tc main_arg3) := W6_of_ne m ρ c main_arg3 (by decide)
theorem keep6_arg4 : W6 (F := Ideal) m ρ c (Proc.devRef .tc main_arg4) = W5 m ρ c (Proc.devRef .tc main_arg4) := W6_of_ne m ρ c main_arg4 (by decide)

include hdense2 in
/-- After the second product. -/
theorem hw7 : W7 (F := Ideal) m ρ c (Proc.devRef .tc main_v48) = Cert.Spec.dense2 (W6 m ρ c (Proc.devRef .tc main_v47)) (W6 m ρ c (Proc.devRef .tc main_arg3)) :=
  (W7_arr m ρ c 2).trans (hdense2 (V6 m ρ) c)

theorem keep7_src : W7 (F := Ideal) m ρ c (Proc.devRef .tc main_v5) = W6 m ρ c (Proc.devRef .tc main_v5) := W7_of_ne m ρ c main_v5 (by decide)
theorem keep7_dst : W7 (F := Ideal) m ρ c (Proc.devRef .tc main_v6) = W6 m ρ c (Proc.devRef .tc main_v6) := W7_of_ne m ρ c main_v6 (by decide)
theorem keep7_nrm : W7 (F := Ideal) m ρ c (Proc.devRef .tc main_v29) = W6 m ρ c (Proc.devRef .tc main_v29) := W7_of_ne m ρ c main_v29 (by decide)
theorem keep7_arg4 : W7 (F := Ideal) m ρ c (Proc.devRef .tc main_arg4) = W6 m ρ c (Proc.devRef .tc main_arg4) := W7_of_ne m ρ c main_arg4 (by decide)

/-- The second propagation, over the boundary before it. -/
theorem agg8 : W8 (F := Ideal) m ρ c (Proc.devRef .tc main_v64)
    = Cert.Spec.conv16 (W7 m ρ c (Proc.devRef .tc main_v48)) (W7 m ρ c (Proc.devRef .tc main_arg4)) (W7 m ρ c (Proc.devRef .tc main_v5)) (W7 m ρ c (Proc.devRef .tc main_v6)) (W7 m ρ c (Proc.devRef .tc main_v29)) :=
  h3_agg _

include hlogsm in
/-- After the last region. -/
theorem res9 : W9 (F := Ideal) m ρ c (Proc.devRef .tc main_v65) = Cert.Spec.logsm (W8 m ρ c (Proc.devRef .tc main_v64)) :=
  (W9_arr m ρ c 1).trans (hlogsm (V8 m ρ) c)

include hdense1 hleaky hdense2 hlogsm in
/-- The result buffer ends at the whole network of the argument arrays. -/
theorem result9 : W9 (F := Ideal) m ρ c (Proc.devRef .tc main_v65)
    = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res9 m ρ c hlogsm, agg8, hw7 m ρ c hdense2, act6 m ρ c hleaky, agg5, xw4 m ρ c hdense1,
    keep7_src, keep6_src, keep5_src, keep4_src, src3,
    keep7_dst, keep6_dst, keep5_dst, keep4_dst, dst3,
    keep7_nrm, keep6_nrm, keep5_nrm, keep4_nrm, nrm3,
    keep7_arg4, keep6_arg4, keep5_arg4, keep4_arg4, arg3_4,
    keep6_arg3, keep5_arg3, keep4_arg3, arg3_3,
    keep4_arg2, arg3_2]
  rfl

end Regions

end Cert.KernelIdeal.KVal

end
-- ==== Proof.KDense.lean ====
/-
  The two matrix products of the kernel program, read as whole arrays.

  Each product runs over a grid of ten points. Point t takes rows 5000 t … 5000 t + 4999 of the left operand and the
  whole right operand, rounds both to bf16 (the identity on extended reals), and stores their product, accumulated
  into a zero splat, as block t of the result. At row p, column q the block's payload is Σ_k x (p, k) · w (k, q); the
  whole-array product at row r, column q is Σ_k X (r, k) · W (k, q); row p of block t is row 5000 t + p of the array.
  The ten blocks tile the result, so the result array IS the whole-array product.
-/
import proofs.«113601_j43069932044897_1_alg».proof.Proof.Spec
import proofs.«113601_j43069932044897_1_alg».proof.Proof.Gen.KernelIdeal.Frame
import Idealize.ShloMosaic.Lib.Pipeline.Value
import Idealize.ShloMosaic.Lib.StackMember
import Idealize.ShloMosaic.Lib.KernelVsHost

set_option maxRecDepth 16384
noncomputable section
open Idealize.ShloMosaic Idealize.ShloMosaic.TcCoe Idealize.SL.Sem
open Idealize.ShloMosaic.ValueIdx
open scoped BigOperators

namespace Cert.KernelIdeal.KVal
open Cert.KernelIdeal Cert.KernelIdeal.Gen

theorem hz : (![0, 0] : Fin 2 → Nat) = fun _ => 0 := funext fun a => by fin_cases a <;> rfl

/-- The printed index maps of the first product's windows, decided over its ten grid points: the row blocks of the left
    operand and of the result move together, one block per point; every other block index stays at zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The printed index maps of the second product's windows, decided over its ten grid points: the row blocks of the left
    operand and of the result move together, one block per point; every other block index stays at zero. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable [Cert.KernelIdeal.Facts] [Cert.ReferenceIdeal.Facts]

/-! ## The first product: [50000, 128] by [128, 100], in ten blocks of 5000 rows -/

/-- Both dimension records — the block product's and the whole-array product's — are the plain one: rows by the
    contracted axis, times the contracted axis by columns. -/
theorem dims0_plain : dot_S5000x128_S128x100_S5000x100_1_0_0_1_n_n = DotDims.plain 5000 128 100 := rfl
theorem rdims0_plain : Cert.ReferenceIdeal.dot_S50000x128_S128x100_S50000x100_1_0_0_1_n_n = DotDims.plain 50000 128 100 := rfl

/-- The block's payload at row p, column q: the roundings to bf16 are the identity on extended reals and the
    accumulator is the zero splat, so what is left is Σ_k x (p, k) · w (k, q). -/
theorem pay0_apply (x0 : Vec Ideal S5000x128 .f32) (w : Vec Ideal S128x100 .f32) (p : Fin 5000) (q : Fin 100) :
    k0_pay1 (F := Ideal) x0 w (ix2 p q) = ∑ k : Fin 128, x0 (ix2 p k) * w (ix2 k q) := by
  unfold k0_pay1
  show matmul dot_S5000x128_S128x100_S5000x100_1_0_0_1_n_n none (truncf (F := Ideal) .bf16 x0 bitsLt_bf16_f32) (truncf (F := Ideal) .bf16 w bitsLt_bf16_f32) (constant S5000x100 .f32 0x00000000#32) (ix2 p q) = _
  rw [matmul_zero_eq_dotGeneral, dims0_plain]
  exact StackMember.dotGeneral_plain_apply none _ _ p q

/-- The whole-array product at row r, column q: Σ_k X (r, k) · W (k, q). -/
theorem dense1_apply (X : FVec Ideal Cert.ReferenceIdeal.S50000x128 .f32) (W : FVec Ideal Cert.ReferenceIdeal.S128x100 .f32) (r : Fin 50000) (q : Fin 100) :
    Cert.Spec.dense1 X W (ix2 r q) = ∑ k : Fin 128, X (ix2 r k) * W (ix2 k q) := by
  unfold Cert.Spec.dense1
  rw [rdims0_plain]
  exact StackMember.dotGeneral_plain_apply none X W r q

/-- The same at an index given by its coordinates' values. -/
theorem dense1_at (X : FVec Ideal Cert.ReferenceIdeal.S50000x128 .f32) (W : FVec Ideal Cert.ReferenceIdeal.S128x100 .f32)
    (i : Cert.ReferenceIdeal.S50000x100.Idx) (r : Fin 50000) (q : Fin 100) (h0 : (i 0).val = r.val) (h1 : (i 1).val = q.val) :
    Cert.Spec.dense1 X W i = ∑ k : Fin 128, X (ix2 r k) * W (ix2 k q) := by
  have e : i = ix2 r q := funext fun a => Fin.ext (by match a with | ⟨0, _⟩ => exact h0 | ⟨1, _⟩ => exact h1)
  rw [e]; exact dense1_apply X W r q

/-! ## The second product: [50000, 100] by [100, 16], in ten blocks of 5000 rows -/

/-- Both dimension records — the block product's and the whole-array product's — are the plain one: rows by the
    contracted axis, times the contracted axis by columns. -/
theorem dims2_plain : dot_S5000x100_S100x16_S5000x16_1_0_0_1_n_n = DotDims.plain 5000 100 16 := rfl
theorem rdims2_plain : Cert.ReferenceIdeal.dot_S50000x100_S100x16_S50000x16_1_0_0_1_n_n = DotDims.plain 50000 100 16 := rfl

/-- The block's payload at row p, column q: the cast of the left block to its own shape and the roundings to bf16 are
    the identity on extended reals and the accumulator is the zero splat, so what is left is Σ_k x (p, k) · w (k, q). -/
theorem pay2_apply (x0 : Vec Ideal S5000x100 .f32) (w : Vec Ideal S100x16 .f32) (p : Fin 5000) (q : Fin 16) :
    k2_pay1 (F := Ideal) x0 w (ix2 p q) = ∑ k : Fin 100, x0 (ix2 p k) * w (ix2 k q) := by
  unfold k2_pay1
  show matmul dot_S5000x100_S100x16_S5000x16_1_0_0_1_n_n none (truncf (F := Ideal) .bf16 (shapeCast S5000x100 x0 shapeCasts_S5000x100_S5000x100) bitsLt_bf16_f32) (truncf (F := Ideal) .bf16 w bitsLt_bf16_f32) (constant S5000x16 .f32 0x00000000#32) (ix2 p q) = _
  rw [shapeCast_self, matmul_zero_eq_dotGeneral, dims2_plain]
  exact StackMember.dotGeneral_plain_apply none _ _ p q

/-- The whole-array product at row r, column q: Σ_k X (r, k) · W (k, q). -/
theorem dense2_apply (X : FVec Ideal Cert.ReferenceIdeal.S50000x100 .f32) (W : FVec Ideal Cert.ReferenceIdeal.S100x16 .f32) (r : Fin 50000) (q : Fin 16) :
    Cert.Spec.dense2 X W (ix2 r q) = ∑ k : Fin 100, X (ix2 r k) * W (ix2 k q) := by
  unfold Cert.Spec.dense2
  rw [rdims2_plain]
  exact StackMember.dotGeneral_plain_apply none X W r q

/-- The same at an index given by its coordinates' values. -/
theorem dense2_at (X : FVec Ideal Cert.ReferenceIdeal.S50000x100 .f32) (W : FVec Ideal Cert.ReferenceIdeal.S100x16 .f32)
    (i : Cert.ReferenceIdeal.S50000x16.Idx) (r : Fin 50000) (q : Fin 16) (h0 : (i 0).val = r.val) (h1 : (i 1).val = q.val) :
    Cert.Spec.dense2 X W i = ∑ k : Fin 100, X (ix2 r k) * W (ix2 k q) := by
  have e : i = ix2 r q := funext fun a => Fin.ext (by match a with | ⟨0, _⟩ => exact h0 | ⟨1, _⟩ => exact h1)
  rw [e]; exact dense2_apply X W r q

variable (V : (c : Dev nD) → (b : Ref sig .tc) → Buf (Elt Ideal) ((c : Thread nD τ).loc b)) (c : Dev nD)

/-! ## The first product, from blocks to the array -/

/-- Row p of the left operand's block at point t is row 5000 t + p of the array; the block spans every column. -/
theorem blk0_0 (t : Fin cfg0.N) (p : Fin 5000) (k : Fin 128) (r : Fin 50000) (hr : r.val = t.val * 5000 + p.val) :
    iblk0 (F := Ideal) V c 0 t (ix2 p k) = V c main_arg0 (ix2 r k) := by
  obtain ⟨e0, e1, e2, e3, e4, e5⟩ := idx_facts0 t
  show V c main_arg0 (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The right operand's block is the whole array at every point. -/
theorem blk0_1 (t : Fin cfg0.N) (k : Fin 128) (q : Fin 100) :
    iblk0 (F := Ideal) V c 1 t (ix2 k q) = V c main_arg1 (ix2 k q) := by
  obtain ⟨e0, e1, e2, e3, e4, e5⟩ := idx_facts0 t
  show V c main_arg1 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 100 + 1 * q.val = q.val; omega

/-- What point t writes back is block t of the whole-array product: rows 5000 t … 5000 t + 4999, each the sum over the
    contracted axis of the products of the array's row and the right operand's column. -/
theorem flushed0_eq (t : Fin cfg0.N) :
    (dat0 (F := Ideal) V c).flushed 2 t = ((cfg0.win 2).blk t).view.read (Elt Ideal) (Cert.Spec.dense1 (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x100) hz]
  refine funext fun (j : S5000x100.Idx) => ?_
  obtain ⟨p, q, rfl⟩ : ∃ (p : Fin 5000) (q : Fin 100), j = ix2 p q := ⟨j 0, j 1, eq_ix2 j⟩
  obtain ⟨e0, e1, e2, e3, e4, e5⟩ := idx_facts0 t
  have hN : grid0.N = 10 := N_0
  have ht : t.val < 10 := hN ▸ t.isLt
  show k0_pay1 (iblk0 V c 0 t) (iblk0 V c 1 t) (ix2 p q)
      = Cert.Spec.dense1 (V c main_arg0) (V c main_arg1) (((cfg0.win 2).blk t).view.emb (ix2 p q))
  refine (pay0_apply (iblk0 V c 0 t) (iblk0 V c 1 t) p q).trans ?_
  refine Eq.trans ?_ (dense1_at (V c main_arg0) (V c main_arg1) _ ⟨t.val * 5000 + p.val, by omega⟩ q ?_ ?_).symm
  · refine Finset.sum_congr rfl fun k _ => ?_
    rw [blk0_0 V c t p k ⟨t.val * 5000 + p.val, by omega⟩ rfl, blk0_1 V c t k q]
  · show win0_2.index t (0 : Fin 2) * 5000 + 1 * p.val = t.val * 5000 + p.val; omega
  · show win0_2.index t (1 : Fin 2) * 100 + 1 * q.val = q.val; omega

/-- An index of the result array is in point t's block iff each coordinate is in the block's range on its axis. -/
theorem mem_blk0 (t : Fin cfg0.N) (i : S50000x100.Idx) :
    i ∈ ((cfg0.win 2).blk t).view.set ↔ ∀ a : Fin 2, win0_2.index t a * S5000x100.size a ≤ (i a).val ∧ (i a).val < win0_2.index t a * S5000x100.size a + S5000x100.size a := by
  show i ∈ ((View.whole main_v30).slice (win0_2.rect t)).set ↔ _
  rw [View.set_slice_whole, Rect.mem_set_unit]
  exact Iff.rfl

/-- Row r of the result is in the block of point r / 5000: the ten blocks fill the array. -/
theorem cover0 (i : S50000x100.Idx) : ∃ t : Fin cfg0.N, (cfg0.win 2).flush t = true ∧ i ∈ ((cfg0.win 2).blk t).view.set := by
  have hN : grid0.N = 10 := N_0
  have hi0 : (i 0).val < 50000 := (i 0).isLt
  have hi1 : (i 1).val < 100 := (i 1).isLt
  obtain ⟨t, ht⟩ : ∃ t : Fin cfg0.N, t.val = (i 0).val / 5000 := ⟨⟨(i 0).val / 5000, by show _ < grid0.N; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 100 ≤ (i 1).val ∧ (i 1).val < win0_2.index t (1 : Fin 2) * 100 + 100; omega

/-- The result array after the region is the whole-array product of the two operand arrays as the region finds them. -/
theorem final0 : (Gen.dat0 (F := Ideal) V c).arrAt 2 cfg0.N = Cert.Spec.dense1 (V c main_arg0) (V c main_arg1) :=
  (dat0 (F := Ideal) V c).arrAt_eq_of_cover 2 (Cert.Spec.dense1 (V c main_arg0) (V c main_arg1)) (fun t _ => flushed0_eq V c t) cover0

/-! ## The second product, from blocks to the array -/

/-- Row p of the left operand's block at point t is row 5000 t + p of the array; the block spans every column. -/
theorem blk2_0 (t : Fin cfg2.N) (p : Fin 5000) (k : Fin 100) (r : Fin 50000) (hr : r.val = t.val * 5000 + p.val) :
    iblk2 (F := Ideal) V c 0 t (ix2 p k) = V c main_v47 (ix2 r k) := by
  obtain ⟨e0, e1, e2, e3, e4, e5⟩ := idx_facts2 t
  show V c main_v47 (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 100 + 1 * k.val = k.val; omega

/-- The right operand's block is the whole array at every point. -/
theorem blk2_1 (t : Fin cfg2.N) (k : Fin 100) (q : Fin 16) :
    iblk2 (F := Ideal) V c 1 t (ix2 k q) = V c main_arg3 (ix2 k q) := by
  obtain ⟨e0, e1, e2, e3, e4, e5⟩ := idx_facts2 t
  show V c main_arg3 (((cfg2.win 1).blk t).view.emb (ix2 k q)) = _
  refine congrArg _ (funext fun a => Fin.ext ?_)
  match a with
  | ⟨0, _⟩ => show win2_1.index t (0 : Fin 2) * 100 + 1 * k.val = k.val; omega
  | ⟨1, _⟩ => show win2_1.index t (1 : Fin 2) * 16 + 1 * q.val = q.val; omega

/-- What point t writes back is block t of the whole-array product: rows 5000 t … 5000 t + 4999, each the sum over the
    contracted axis of the products of the array's row and the right operand's column. -/
theorem flushed2_eq (t : Fin cfg2.N) :
    (dat2 (F := Ideal) V c).flushed 2 t = ((cfg2.win 2).blk t).view.read (Elt Ideal) (Cert.Spec.dense2 (V c main_v47) (V c main_arg3)) := by
  show (cfg2.win 2).cut (grid2.coords t) ((dat2 V c).after 2 t) = _
  rw [after2_2]
  unfold out2_2
  rw [View.canon_unit_zero hz]
  simp only [View.ld_unit_zero (S := S5000x100) hz, View.ld_unit_zero (S := S100x16) hz]
  refine funext fun (j : S5000x16.Idx) => ?_
  obtain ⟨p, q, rfl⟩ : ∃ (p : Fin 5000) (q : Fin 16), j = ix2 p q := ⟨j 0, j 1, eq_ix2 j⟩
  obtain ⟨e0, e1, e2, e3, e4, e5⟩ := idx_facts2 t
  have hN : grid2.N = 10 := N_2
  have ht : t.val < 10 := hN ▸ t.isLt
  show k2_pay1 (iblk2 V c 0 t) (iblk2 V c 1 t) (ix2 p q)
      = Cert.Spec.dense2 (V c main_v47) (V c main_arg3) (((cfg2.win 2).blk t).view.emb (ix2 p q))
  refine (pay2_apply (iblk2 V c 0 t) (iblk2 V c 1 t) p q).trans ?_
  refine Eq.trans ?_ (dense2_at (V c main_v47) (V c main_arg3) _ ⟨t.val * 5000 + p.val, by omega⟩ q ?_ ?_).symm
  · refine Finset.sum_congr rfl fun k _ => ?_
    rw [blk2_0 V c t p k ⟨t.val * 5000 + p.val, by omega⟩ rfl, blk2_1 V c t k q]
  · show win2_2.index t (0 : Fin 2) * 5000 + 1 * p.val = t.val * 5000 + p.val; omega
  · show win2_2.index t (1 : Fin 2) * 16 + 1 * q.val = q.val; omega

/-- An index of the result array is in point t's block iff each coordinate is in the block's range on its axis. -/
theorem mem_blk2 (t : Fin cfg2.N) (i : S50000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v48).slice (win2_2.rect t)).set ↔ _
  rw [View.set_slice_whole, Rect.mem_set_unit]
  exact Iff.rfl

/-- Row r of the result is in the block of point r / 5000: the ten blocks fill the array. -/
theorem cover2 (i : S50000x16.Idx) : ∃ t : Fin cfg2.N, (cfg2.win 2).flush t = true ∧ i ∈ ((cfg2.win 2).blk t).view.set := by
  have hN : grid2.N = 10 := N_2
  have hi0 : (i 0).val < 50000 := (i 0).isLt
  have hi1 : (i 1).val < 16 := (i 1).isLt
  obtain ⟨t, ht⟩ : ∃ t : Fin cfg2.N, t.val = (i 0).val / 5000 := ⟨⟨(i 0).val / 5000, by show _ < grid2.N; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The result array after the region is the whole-array product of the two operand arrays as the region finds them. -/
theorem final2 : (Gen.dat2 (F := Ideal) V c).arrAt 2 cfg2.N = Cert.Spec.dense2 (V c main_v47) (V c main_arg3) :=
  (dat2 (F := Ideal) V c).arrAt_eq_of_cover 2 (Cert.Spec.dense2 (V c main_v47) (V c main_arg3)) (fun t _ => flushed2_eq V c t) cover2

end Cert.KernelIdeal.KVal
end
-- ==== Proof.KLeaky.lean ====
/-
  Region 1 of the kernel program, read as a whole array.

  The region walks a grid of ten points.  At point t it takes rows 5000 t … 5000 t + 4999 of the array
  h : f32[50000, 100] it finds in main_v46 and stores, element by element,
      select (v > 0) v (v · 0.01)
  as block t of main_v47 (0.01 is the f32 word 0x3C23D70A).  The reference's form of the leaky rectifier on the whole
  array is  select (v ≥ 0) v (0.01 · v).  On the extended reals the two agree everywhere: they can differ only
  at v = 0, where the first gives 0 · 0.01 = 0 and the second gives v = 0; and the product commutes.

  So every point writes back block t of ONE function of h (`Cert.Spec.leaky h`), the ten blocks cover the fifty
  thousand rows (row r lies in block r / 5000), and the array the region leaves is that function.
-/
import proofs.«113601_j43069932044897_1_alg».proof.Proof.Spec
import proofs.«113601_j43069932044897_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KVal
open Cert.KernelIdeal Cert.KernelIdeal.Gen

/-! ## Facts decided over the ten grid points -/

/-- The body's loads and its store are at offsets (0, 0). -/
theorem lk_off : (![0, 0] : Fin 2 → Nat) = fun _ => 0 := funext fun a => by fin_cases a <;> rfl

/-- The two windows move together: at point t both are at block row t, block column 0. -/
theorem lk_index : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

variable [Cert.KernelIdeal.Facts] [Cert.ReferenceIdeal.Facts]
variable (V : (c : Dev nD) → (b : Ref sig .tc) → Buf (Elt Ideal) ((c : Thread nD τ).loc b)) (c : Dev nD)

/-! ## One element -/

/-- The leaky rectifier on one extended real, in the reference's form: v where 0 ≤ v, else 0.01 · v. -/
def lrelu (v : EReal) : EReal :=
  Scalar.select (Ideal.cmp .oge v (Ideal.ofBits .f32 0x00000000#32)) v (Ideal.ofBits .f32 0x3C23D70A#32 * v)

/-- The kernel's form — strict comparison, the factor on the right — is the same function: for 0 < v both give v,
    for v < 0 both give the product (which commutes), and at v = 0 the kernel's product 0 · 0.01 is the 0 the
    reference selects. -/
theorem lrelu_strict (v : EReal) :
    Scalar.select (Ideal.cmp .ogt v (Ideal.ofBits .f32 0x00000000#32)) v (v * Ideal.ofBits .f32 0x3C23D70A#32) = lrelu v := by
  unfold lrelu
  rw [Ideal.ofBits_zero_f32, mul_comm]
  unfold Ideal.cmp Scalar.select
  by_cases h : (0 : EReal) < v
  · have h' : (0 : EReal) ≤ v := le_of_lt h
    simp [h, h']
  · by_cases h0 : (0 : EReal) ≤ v
    · have e : v = 0 := le_antisymm (not_lt.mp h) h0
      subst e; simp
    · simp [h, h0]

/-- The value the body stores, at an index of the block: the rectifier of the block's entry there. -/
theorem lk_pay_apply (x : Vec Ideal S5000x100 .f32) (j : S5000x100.Idx) : k1_pay1 (F := Ideal) x j = lrelu (x j) := by
  unfold k1_pay1
  rw [shapeCast_self]
  exact lrelu_strict (x j)

/-- The reference's array at an index: the rectifier of the entry there. -/
theorem lk_spec_apply (h : FVec Ideal Cert.ReferenceIdeal.S50000x100 .f32) (i : Cert.ReferenceIdeal.S50000x100.Idx) :
    Cert.Spec.leaky h i = lrelu (h i) := rfl

/-! ## From blocks to the array -/

/-- What point t writes back is block t of the rectified array: entry (p, q) of the input block is entry
    (5000 t + p, q) of the array, which is where entry (p, q) of the output block goes. -/
theorem lk_flushed (t : Fin cfg1.N) :
    (Gen.dat1 (F := Ideal) V c).flushed 1 t = ((cfg1.win 1).blk t).view.read (Elt Ideal) (Cert.Spec.leaky (V c main_v46)) := by
  show (cfg1.win 1).cut (grid1.coords t) ((dat1 V c).after 1 t) = _
  rw [after1_1]
  unfold out1_1
  rw [View.canon_unit_zero lk_off]
  simp only [View.ld_unit_zero (S := S5000x100) lk_off]
  obtain ⟨e0, e1, e2, e3⟩ := lk_index t
  refine funext fun (j : S5000x100.Idx) => ?_
  show k1_pay1 (iblk1 V c 0 t) j = Cert.Spec.leaky (V c main_v46) (((cfg1.win 1).blk t).view.emb j)
  have h0 : (iblk1 V c 0 t : Vec Ideal S5000x100 .f32) j = V c main_v46 (((cfg1.win 1).blk t).view.emb j) := by
    show V c main_v46 (((cfg1.win 0).blk t).view.emb j) = V c main_v46 (((cfg1.win 1).blk t).view.emb j)
    refine congrArg _ ?_
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 100 + 1 * (j 1).val = win1_1.index t (1 : Fin 2) * 100 + 1 * (j 1).val; omega
  exact (lk_pay_apply (iblk1 V c 0 t) j).trans ((congrArg lrelu h0).trans (lk_spec_apply _ _).symm)

/-- An index of the array is in point t's block iff each coordinate is in the block's range on its axis. -/
theorem lk_mem_blk (t : Fin cfg1.N) (i : S50000x100.Idx) :
    i ∈ ((cfg1.win 1).blk t).view.set ↔ ∀ a : Fin 2, win1_1.index t a * S5000x100.size a ≤ (i a).val ∧ (i a).val < win1_1.index t a * S5000x100.size a + S5000x100.size a := by
  show i ∈ ((View.whole main_v47).slice (win1_1.rect t)).set ↔ _
  rw [View.set_slice_whole, Rect.mem_set_unit]
  exact Iff.rfl

/-- Row r of the array lies in the block of point r / 5000; every point writes back. -/
theorem lk_cover (i : S50000x100.Idx) : ∃ t : Fin cfg1.N, (cfg1.win 1).flush t = true ∧ i ∈ ((cfg1.win 1).blk t).view.set := by
  have hi0 : (i 0).val < 50000 := (i 0).isLt
  have hi1 : (i 1).val < 100 := (i 1).isLt
  have hN : cfg1.N = 10 := N_1
  have hlt : (i 0).val / 5000 < cfg1.N := by rw [hN]; omega
  obtain ⟨e0, e1, e2, e3⟩ := lk_index ⟨(i 0).val / 5000, hlt⟩
  refine ⟨⟨(i 0).val / 5000, hlt⟩, flush1_1 _, ?_⟩
  rw [lk_mem_blk]
  intro a
  match a with
  | ⟨0, _⟩ =>
    show win1_1.index ⟨(i 0).val / 5000, hlt⟩ (0 : Fin 2) * 5000 ≤ (i 0).val ∧ (i 0).val < win1_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win1_1.index ⟨(i 0).val / 5000, hlt⟩ (1 : Fin 2) * 100 ≤ (i 1).val ∧ (i 1).val < win1_1.index ⟨(i 0).val / 5000, hlt⟩ (1 : Fin 2) * 100 + 100
    rw [e3]; omega

/-- Region 1 leaves its output array at the leaky rectifier of the array it read. -/
theorem final1 : (Gen.dat1 (F := Ideal) V c).arrAt 1 cfg1.N = Cert.Spec.leaky (V c main_v46) :=
  (Gen.dat1 (F := Ideal) V c).arrAt_eq_of_cover 1 (Cert.Spec.leaky (V c main_v46)) (fun t _ => lk_flushed V c t) lk_cover

end Cert.KernelIdeal.KVal

end
-- ==== Proof.KSoftmax.lean ====
/-
  Region 3 of the kernel program, read as a whole array.

  The region walks a grid of ten points.  At point t it takes rows 5000 t … 5000 t + 4999 of the array
  z : f32[50000, 16] it finds in main_v64 and stores, row by row,
      (z_q - m) - log (Σ_k exp (z_k - m)),      m = max_k z_k  (folded from -∞),
  as block t of main_v65: the lane maximum and the lane sum are reductions along axis 1, re-laid as a column and
  broadcast along the rows.  The reference computes the same row function on the whole array: its maximum reduction
  from -∞ along axis 1 is taken once more against -∞ (which changes nothing, a fold of max being at least its start),
  and its exponential, sum and logarithm are the same functions on the extended reals as the kernel's.

  Both sides are therefore ONE function of a row of sixteen extended reals (`rowLogSoftmax`), applied by the kernel
  to row p of its block and by the reference to row r of the array; row p of block t is row 5000 t + p of the array.
  So every point writes back block t of `Cert.Spec.logsm z`, the ten blocks cover the fifty thousand rows, and the
  array the region leaves is that function.
-/
import proofs.«113601_j43069932044897_1_alg».proof.Proof.Spec
import proofs.«113601_j43069932044897_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.IdealHost

noncomputable section

open Idealize.ShloMosaic Idealize.ShloMosaic.TcCoe Idealize.SL.Sem
open Idealize.ShloMosaic.Pipeline (Dat)
open Idealize.ShloMosaic.ValueIdx

namespace Cert.KernelIdeal.KVal
open Cert.KernelIdeal Cert.KernelIdeal.Gen

/-! ## Facts decided over the ten grid points -/

/-- The body's load and its store are at offsets (0, 0). -/
theorem sm_off : (![0, 0] : Fin 2 → Nat) = fun _ => 0 := funext fun a => by fin_cases a <;> rfl

/-- The two windows move together: at point t both are at block row t, block column 0. -/
theorem sm_index : ∀ t : Fin cfg3.N, win3_0.index t (0 : Fin 2) = win3_1.index t (0 : Fin 2)
    ∧ win3_0.index t (1 : Fin 2) = win3_1.index t (1 : Fin 2)
    ∧ win3_1.index t (0 : Fin 2) = t.val ∧ win3_1.index t (1 : Fin 2) = 0 :=
  (by decide +kernel : ∀ t : Fin grid3.N, _)

/-! ## Layout forms: a vector as a column, a column along the rows -/

/-- An [a] vector cast to [a, 1] reads, at (i, u), the operand at i. -/
theorem sm_shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, q), the column at (p, 0). -/
theorem sm_broadcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## One row -/

/-- The maximum of a row of sixteen extended reals, folded from -∞ (the f32 word 0xFF800000). -/
def rowTop (row : Fin 16 → EReal) : EReal :=
  (Finset.univ : Finset (Fin 16)).fold max (Ideal.ofBits .f32 0xFF800000#32) row

/-- Log-softmax of one row at lane q: (z_q - m) - log Σ_k exp (z_k - m), m the row's maximum. -/
def rowLogSoftmax (row : Fin 16 → EReal) (q : Fin 16) : EReal :=
  (row q - rowTop row) - Ideal.log (∑ k : Fin 16, Ideal.exp (row k - rowTop row))

/-- A fold of max is at least the value it starts from, so taking the maximum with that value again changes nothing. -/
theorem sm_max_rowTop (row : Fin 16 → EReal) : max (Ideal.ofBits .f32 0xFF800000#32) (rowTop row) = rowTop row :=
  max_eq_right ((Finset.le_fold_max _).mpr (Or.inl le_rfl))

/-! ## The kernel's side -/

/-- The index a lane reduction over axis 1 reads: row p's lane k. -/
theorem sm_lift_row {a : ℕ} (h : (⟨2, ![a, 16]⟩ : Shape).Reduces [1] ⟨1, ![a]⟩) (p : Fin a) (k : Fin 16) :
    h.lift (ix1 p) k = ix2 p k := by
  funext c; apply Fin.ext
  match c with
  | ⟨0, _⟩ => rfl
  | ⟨1, _⟩ => rfl

/-- The kernel's lane maximum at row p. -/
theorem sm_lane_max_apply (x : FVec Ideal S5000x16 .f32) (h : S5000x16.Reduces [1] S5000) (hφ : FKind.Formats .f32)
    (hacc : (0xFF800000#32 : BitVec 32) = FKind.maximumf.neutral .f32 hφ) (p : Fin 5000) :
    multiReduction (F := Ideal) .maximumf [1] S5000 x 0xFF800000#32 h hφ hacc (ix1 p) = rowTop (fun k => x (ix2 p k)) := by
  refine (Ideal.multiReduction_maximumf_single x 0xFF800000#32 h hφ hacc (ix1 p)).trans ?_
  show (Finset.univ : Finset (Fin 16)).fold max (Ideal.ofBits .f32 0xFF800000#32) (fun k => x (h.lift (ix1 p) k)) = rowTop (fun k => x (ix2 p k))
  unfold rowTop
  refine congrArg (fun f : Fin 16 → EReal => (Finset.univ : Finset (Fin 16)).fold max (Ideal.ofBits .f32 0xFF800000#32) f) (funext fun k => ?_)
  rw [sm_lift_row h p k]

/-- The kernel's lane sum at row p. -/
theorem sm_lane_sum_apply (x : FVec Ideal S5000x16 .f32) (h : S5000x16.Reduces [1] S5000) (hφ : FKind.Formats .f32)
    (hacc : (0x00000000#32 : BitVec 32) = FKind.add.neutral .f32 hφ) (p : Fin 5000) :
    multiReduction (F := Ideal) .add [1] S5000 x 0x00000000#32 h hφ hacc (ix1 p) = ∑ k : Fin 16, x (ix2 p k) := by
  refine (Ideal.multiReduction_add_single x 0x00000000#32 h hφ hacc (ix1 p)).trans ?_
  refine Finset.sum_congr rfl fun k _ => ?_
  rw [sm_lift_row h p k]

/-- The kernel's row maxima, as a column along the rows. -/
def sm_kMax (x : FVec Ideal S5000x16 .f32) : FVec Ideal S5000x16 .f32 :=
  broadcastTo S5000x16 (shapeCast S5000x1 (multiReduction .maximumf [1] S5000 x 0xFF800000#32 reduces_S5000x16_S5000 (.inl rfl) rfl) shapeCasts_S5000_S5000x1) broadcasts_S5000x1_S5000x16

/-- At (p, q) it is the maximum of row p. -/
theorem sm_kMax_apply (x : FVec Ideal S5000x16 .f32) (p : Fin 5000) (q : Fin 16) : sm_kMax x (ix2 p q) = rowTop (fun k => x (ix2 p k)) :=
  (sm_broadcast_col_apply _ _ p q).trans ((sm_shapeCast_col_apply _ _ p 0).trans (sm_lane_max_apply x _ _ _ p))

/-- The kernel's stored block is the nest of operations of its loaded block. -/
theorem sm_pay_eq (x : Vec Ideal S5000x16 .f32) :
    k3_pay1 (F := Ideal) x = subf (subf x (sm_kMax x)) (broadcastTo S5000x16 (log (shapeCast S5000x1 (multiReduction .add [1] S5000 (exp (subf x (sm_kMax x))) 0x00000000#32 reduces_S5000x16_S5000 (.inl rfl) rfl) shapeCasts_S5000_S5000x1)) broadcasts_S5000x1_S5000x16) := by
  unfold k3_pay1 sm_kMax
  simp only [shapeCast_self]

/-- The value the body stores at row p, lane q of the block: the log-softmax of row p of the block at lane q. -/
theorem sm_pay_apply (x : Vec Ideal S5000x16 .f32) (p : Fin 5000) (q : Fin 16) :
    k3_pay1 (F := Ideal) x (ix2 p q) = rowLogSoftmax (fun k => x (ix2 p k)) q := by
  rw [sm_pay_eq]
  show (x (ix2 p q) - sm_kMax x (ix2 p q)) - broadcastTo S5000x16 _ broadcasts_S5000x1_S5000x16 (ix2 p q) = _
  unfold rowLogSoftmax
  rw [sm_kMax_apply]
  refine congrArg (fun v => (x (ix2 p q) - rowTop (fun k => x (ix2 p k))) - v) ?_
  refine (sm_broadcast_col_apply _ _ p q).trans ?_
  show Ideal.log (shapeCast S5000x1 _ shapeCasts_S5000_S5000x1 (ix2 p (0 : Fin 1))) = _
  refine congrArg Ideal.log ((sm_shapeCast_col_apply _ _ p 0).trans ((sm_lane_sum_apply _ _ _ _ p).trans ?_))
  refine Finset.sum_congr rfl fun k _ => ?_
  show Ideal.exp (x (ix2 p k) - sm_kMax x (ix2 p k)) = _
  rw [sm_kMax_apply]

/-! ## The reference's side -/

variable [Cert.KernelIdeal.Facts] [Cert.ReferenceIdeal.Facts]

/-- A column [50000, 1] broadcast along the rows to [50000, 16], read at (r, q): the column at (r, 0). -/
theorem sm_bcast_col_apply {α : Type} (h : Cert.ReferenceIdeal.S50000x1.BroadcastsInDim Cert.ReferenceIdeal.S50000x16 (![0, 1] : Fin 2 → Fin Cert.ReferenceIdeal.S50000x16.rank))
    (v : Cert.ReferenceIdeal.S50000x1.Idx → α) (r : Fin 50000) (q : Fin 16) :
    broadcastInDim Cert.ReferenceIdeal.S50000x16 ![0, 1] h v (ix2 r q) = v (ix2 r (0 : Fin 1)) := by
  refine broadcastInDim_apply _ h v (ix2 r q) (ix2 r (0 : Fin 1)) fun a => ?_
  match a with
  | ⟨0, _⟩ => rfl
  | ⟨1, _⟩ => rfl

/-- A vector [50000] as a column [50000, 1], read at (r, 0): the vector at r. -/
theorem sm_bcast_vec_apply {α : Type} (h : Cert.ReferenceIdeal.S50000.BroadcastsInDim Cert.ReferenceIdeal.S50000x1 (![0] : Fin 1 → Fin Cert.ReferenceIdeal.S50000x1.rank))
    (v : Cert.ReferenceIdeal.S50000.Idx → α) (r : Fin 50000) (u : Fin 1) :
    broadcastInDim Cert.ReferenceIdeal.S50000x1 ![0] h v (ix2 r u) = v (ix1 r) := by
  refine broadcastInDim_apply _ h v (ix2 r u) (ix1 r) fun a => ?_
  match a with
  | ⟨0, _⟩ => rfl

/-- Dropping axis 1 of [50000, 16] leaves [50000]. -/
theorem sm_reduces : Cert.ReferenceIdeal.S50000x16.Reduces [1] Cert.ReferenceIdeal.S50000 := by decide

/-- The reference's maximum reduction along axis 1, from -∞, at row r: the maximum of row r. -/
theorem sm_host_max_apply (z : FVec Ideal Cert.ReferenceIdeal.S50000x16 .f32) (h' : Cert.ReferenceIdeal.S50000x16.ReducesTo [1] Cert.ReferenceIdeal.S50000)
    (hu : 0 < Cert.ReferenceIdeal.S_.numel) (r : Fin 50000) :
    Host.reduce FloatOps.maximumf z (constant (F := Ideal) Cert.ReferenceIdeal.S_ .f32 0xFF800000#32) h' hu (ix1 r) = rowTop (fun k => z (ix2 r k)) := by
  refine (Host.reduce_eq_fold_single FloatOps.maximumf z _ h' sm_reduces hu (ix1 r)).trans ?_
  show (Finset.univ : Finset (Fin 16)).fold max (Ideal.ofBits .f32 0xFF800000#32) (fun k => z (sm_reduces.lift (ix1 r) k)) = _
  unfold rowTop
  refine congrArg (fun f : Fin 16 → EReal => (Finset.univ : Finset (Fin 16)).fold max (Ideal.ofBits .f32 0xFF800000#32) f) (funext fun k => ?_)
  rw [sm_lift_row sm_reduces r k]

/-- The reference's row maxima at (r, q): the maximum of row r — its second maximum with -∞ changes nothing. -/
theorem sm_spec_rowMax_apply (z : FVec Ideal Cert.ReferenceIdeal.S50000x16 .f32) (r : Fin 50000) (q : Fin 16) :
    Cert.Spec.rowMax z (ix2 r q) = rowTop (fun k => z (ix2 r k)) := by
  unfold Cert.Spec.rowMax
  refine (sm_bcast_col_apply _ _ r q).trans ((sm_bcast_vec_apply _ _ r 0).trans ?_)
  refine (maximumf_apply _ _ (ix1 r)).trans ?_
  refine (congrArg (fun v => max (Ideal.ofBits .f32 0xFF800000#32) v) (sm_host_max_apply z _ _ r)).trans ?_
  exact sm_max_rowTop _

/-- The reference's logarithm and exponential at an index are the same functions of the element as the kernel's. -/
theorem sm_host_log_apply {s : Shape} {φ : FTy} (v : FVec Ideal s φ) (i : s.Idx) : Host.log v i = Ideal.log (v i) := rfl
theorem sm_host_exp_apply {s : Shape} {φ : FTy} (v : FVec Ideal s φ) (i : s.Idx) : Host.exp v i = Ideal.exp (v i) := rfl

/-- The reference's sum along axis 1, from 0, at row r: the sum over the sixteen lanes of row r. -/
theorem sm_host_sum_apply (X : FVec Ideal Cert.ReferenceIdeal.S50000x16 .f32) (h' : Cert.ReferenceIdeal.S50000x16.ReducesTo [1] Cert.ReferenceIdeal.S50000)
    (hu : 0 < Cert.ReferenceIdeal.S_.numel) (r : Fin 50000) :
    Host.reduceAdd X (constant (F := Ideal) Cert.ReferenceIdeal.S_ .f32 0x00000000#32) h' hu (ix1 r) = ∑ k : Fin 16, X (ix2 r k) := by
  refine (hostReduceAdd_apply X _ h' hu (ix1 r)).trans ((Ideal.hostReduceAdd_single h' sm_reduces X _ (ix1 r)).trans ?_)
  show Ideal.ofBits .f32 0x00000000#32 + (∑ k : Fin 16, X (sm_reduces.lift (ix1 r) k)) = _
  rw [Ideal.ofBits_zero_f32, zero_add]
  refine Finset.sum_congr rfl fun k _ => ?_
  rw [sm_lift_row sm_reduces r k]

/-- The reference's array at (r, q): the log-softmax of row r at lane q. -/
theorem sm_spec_apply (z : FVec Ideal Cert.ReferenceIdeal.S50000x16 .f32) (r : Fin 50000) (q : Fin 16) :
    Cert.Spec.logsm z (ix2 r q) = rowLogSoftmax (fun k => z (ix2 r k)) q := by
  unfold Cert.Spec.logsm
  refine (subf_apply _ _ (ix2 r q)).trans ?_
  unfold rowLogSoftmax
  refine congrArg₂ (· - ·) ?_ ?_
  · refine (subf_apply _ _ (ix2 r q)).trans ?_
    exact congrArg (fun m => z (ix2 r q) - m) (sm_spec_rowMax_apply z r q)
  · refine (sm_bcast_col_apply _ _ r q).trans ((sm_host_log_apply _ _).trans (congrArg Ideal.log ?_))
    refine (sm_bcast_vec_apply _ _ r 0).trans ((sm_host_sum_apply _ _ _ r).trans ?_)
    refine Finset.sum_congr rfl fun k _ => ?_
    refine (sm_host_exp_apply _ _).trans (congrArg Ideal.exp ((subf_apply _ _ _).trans ?_))
    exact congrArg (fun m => z (ix2 r k) - m) (sm_spec_rowMax_apply z r k)

variable (V : (c : Dev nD) → (b : Ref sig .tc) → Buf (Elt Ideal) ((c : Thread nD τ).loc b)) (c : Dev nD)

/-! ## From blocks to the array -/

/-- What point t writes back is block t of the row-wise log-softmax of the array: row p of the input block is row
    5000 t + p of the array, lane by lane, and entry (p, q) of the output block goes to entry (5000 t + p, q). -/
theorem sm_flushed (t : Fin cfg3.N) :
    (Gen.dat3 (F := Ideal) V c).flushed 1 t = ((cfg3.win 1).blk t).view.read (Elt Ideal) (Cert.Spec.logsm (V c main_v64)) := by
  show (cfg3.win 1).cut (grid3.coords t) ((dat3 V c).after 1 t) = _
  rw [after3_1]
  unfold out3_1
  rw [View.canon_unit_zero sm_off]
  simp only [View.ld_unit_zero (S := S5000x16) sm_off]
  obtain ⟨e0, e1, e2, e3⟩ := sm_index t
  refine funext fun (j : S5000x16.Idx) => ?_
  obtain ⟨p, q, rfl⟩ : ∃ (p : Fin 5000) (q : Fin 16), j = ix2 p q := ⟨j 0, j 1, eq_ix2 j⟩
  show k3_pay1 (iblk3 V c 0 t) (ix2 p q) = Cert.Spec.logsm (V c main_v64) (((cfg3.win 1).blk t).view.emb (ix2 p q))
  have hN : cfg3.N = 10 := N_3
  have ht : t.val < 10 := lt_of_lt_of_eq t.isLt hN
  have hrow : 5000 * t.val + p.val < 50000 := by have := p.isLt; omega
  have hemb : ((cfg3.win 1).blk t).view.emb (ix2 p q) = (ix2 (⟨5000 * t.val + p.val, hrow⟩ : Fin 50000) q : S50000x16.Idx) := by
    funext a; apply Fin.ext
    match a with
    | ⟨0, _⟩ => show win3_1.index t (0 : Fin 2) * 5000 + 1 * p.val = 5000 * t.val + p.val; omega
    | ⟨1, _⟩ => show win3_1.index t (1 : Fin 2) * 16 + 1 * q.val = q.val; omega
  have hblk : ∀ k : Fin 16, (iblk3 V c 0 t : Vec Ideal S5000x16 .f32) (ix2 p k) = V c main_v64 (ix2 (⟨5000 * t.val + p.val, hrow⟩ : Fin 50000) k : S50000x16.Idx) := by
    intro k
    show V c main_v64 (((cfg3.win 0).blk t).view.emb (ix2 p k)) = _
    refine congrArg _ ?_
    funext a; apply Fin.ext
    match a with
    | ⟨0, _⟩ => show win3_0.index t (0 : Fin 2) * 5000 + 1 * p.val = 5000 * t.val + p.val; omega
    | ⟨1, _⟩ => show win3_0.index t (1 : Fin 2) * 16 + 1 * k.val = k.val; omega
  exact (sm_pay_apply (iblk3 V c 0 t) p q).trans ((congrArg (fun row => rowLogSoftmax row q) (funext hblk)).trans
    ((sm_spec_apply (V c main_v64) ⟨_, hrow⟩ q).symm.trans (congrArg (Cert.Spec.logsm (V c main_v64)) hemb).symm))

/-- An index of the array is in point t's block iff each coordinate is in the block's range on its axis. -/
theorem sm_mem_blk (t : Fin cfg3.N) (i : S50000x16.Idx) :
    i ∈ ((cfg3.win 1).blk t).view.set ↔ ∀ a : Fin 2, win3_1.index t a * S5000x16.size a ≤ (i a).val ∧ (i a).val < win3_1.index t a * S5000x16.size a + S5000x16.size a := by
  show i ∈ ((View.whole main_v65).slice (win3_1.rect t)).set ↔ _
  rw [View.set_slice_whole, Rect.mem_set_unit]
  exact Iff.rfl

/-- Row r of the array lies in the block of point r / 5000; every point writes back. -/
theorem sm_cover (i : S50000x16.Idx) : ∃ t : Fin cfg3.N, (cfg3.win 1).flush t = true ∧ i ∈ ((cfg3.win 1).blk t).view.set := by
  have hi0 : (i 0).val < 50000 := (i 0).isLt
  have hi1 : (i 1).val < 16 := (i 1).isLt
  have hN : cfg3.N = 10 := N_3
  have hlt : (i 0).val / 5000 < cfg3.N := by rw [hN]; omega
  obtain ⟨e0, e1, e2, e3⟩ := sm_index ⟨(i 0).val / 5000, hlt⟩
  refine ⟨⟨(i 0).val / 5000, hlt⟩, flush3_1 _, ?_⟩
  rw [sm_mem_blk]
  intro a
  match a with
  | ⟨0, _⟩ =>
    show win3_1.index ⟨(i 0).val / 5000, hlt⟩ (0 : Fin 2) * 5000 ≤ (i 0).val ∧ (i 0).val < win3_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win3_1.index ⟨(i 0).val / 5000, hlt⟩ (1 : Fin 2) * 16 ≤ (i 1).val ∧ (i 1).val < win3_1.index ⟨(i 0).val / 5000, hlt⟩ (1 : Fin 2) * 16 + 16
    rw [e3]; omega

/-- Region 3 leaves its output array at the row-wise log-softmax of the array it read. -/
theorem final3 : (Gen.dat3 (F := Ideal) V c).arrAt 1 cfg3.N = Cert.Spec.logsm (V c main_v64) :=
  (Gen.dat3 (F := Ideal) V c).arrAt_eq_of_cover 1 (Cert.Spec.logsm (V c main_v64)) (fun t _ => sm_flushed V c t) sm_cover

end Cert.KernelIdeal.KVal
end
-- ==== Proof.RefRunOps.lean ====
import proofs.«113601_j43069932044897_1_alg».proof.ReferenceIdeal
import Idealize.ShloMosaic.Lib.StableHlo.Run

/-!
  The reference program as a straight line.  Its @main is two windows of host operations with four calls of
  outlined functions; here every call is replaced by the callee's operations over that call's buffer record,
  which gives one list of operations per window.  The program equals the sequence of the two lists, every
  operation touches TensorCore buffers only, and so every fair run ends with each buffer at the fold of the
  operations' results over the launch contents.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]
variable {F : FTy → Type} [FloatOps F]

/-- The first window's operations, the two calls (the masked reciprocal square root, the leaky rectifier) inlined. -/
abbrev ops0 : List (HloOp τ sig (Elt F)) :=
  [ StableHlo.unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S50000x128_S128x100_S50000x100_1_0_0_1_n_n none l r) : (⟨S50000x128, .f32⟩ : BufTy).Contents (Elt F) → (⟨S128x100, .f32⟩ : BufTy).Contents (Elt F) → (⟨S50000x100, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (TRef.of main_cst_2 : TRef sig ⟨S_, .f32⟩) main_call0.v0 id,
    StableHlo.TRef.unary main_call0.v0 main_call0.v1 (broadcastInDim S50000 ![] bcast_S_S50000),
    StableHlo.TRef.ternary (TRef.of main_v13 : TRef sig ⟨S50000, .i1⟩) (TRef.of main_v14 : TRef sig ⟨S50000, .f32⟩) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v6 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v6 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v7 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v6 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v6 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v4 main_v36 main_v37 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    StableHlo.unary main_v30 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x100 ![0, 1] bcast_S850000x1_S850000x100_0_1 : (⟨S850000x1, .f32⟩ : BufTy).Contents (Elt F) → (⟨S850000x100, .f32⟩ : BufTy).Contents (Elt F)),
    StableHlo.binary main_v37 main_v39 main_v40 (mulf : (⟨S850000x100, .f32⟩ : BufTy).Contents (Elt F) → (⟨S850000x100, .f32⟩ : BufTy).Contents (Elt F) → (⟨S850000x100, .f32⟩ : BufTy).Contents (Elt F)),
    StableHlo.nullary main_cst_8 (constant S_ .f32 0x00000000#32),
    StableHlo.unary main_cst_8 main_v41 (broadcastInDim S50000x100 ![] bcast_S_S50000x100 : (⟨S_, .f32⟩ : BufTy).Contents (Elt F) → (⟨S50000x100, .f32⟩ : BufTy).Contents (Elt F)),
    StableHlo.unary main_v7 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)),
    StableHlo.unary main_arg2 main_v44 (broadcastInDim S1x100 ![1] bcast_S100_S1x100_1 : (⟨S100, .f32⟩ : BufTy).Contents (Elt F) → (⟨S1x100, .f32⟩ : BufTy).Contents (Elt F)),
    StableHlo.unary main_v44 main_v45 (broadcastInDim S50000x100 ![0, 1] bcast_S1x100_S50000x100_0_1 : (⟨S1x100, .f32⟩ : BufTy).Contents (Elt F) → (⟨S50000x100, .f32⟩ : BufTy).Contents (Elt F)),
    StableHlo.binary main_v43 main_v45 main_v46 (addf : (⟨S50000x100, .f32⟩ : BufTy).Contents (Elt F) → (⟨S50000x100, .f32⟩ : BufTy).Contents (Elt F) → (⟨S50000x100, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S50000x100 ![] bcast_S_S50000x100),
    StableHlo.TRef.binary (TRef.of main_v46 : TRef sig ⟨S50000x100, .f32⟩) main_call1.v0 main_call1.v1 (cmpf .oge),
    StableHlo.TRef.unary (TRef.of main_cst_9 : TRef sig ⟨S_, .f32⟩) main_call1.v2 id,
    StableHlo.TRef.unary main_call1.v2 main_call1.v3 (broadcastInDim S50000x100 ![] bcast_S_S50000x100),
    StableHlo.TRef.binary main_call1.v3 (TRef.of main_v46 : TRef sig ⟨S50000x100, .f32⟩) main_call1.v4 mulf,
    StableHlo.TRef.ternary main_call1.v1 (TRef.of main_v46 : TRef sig ⟨S50000x100, .f32⟩) main_call1.v4 main_call1.call0.v0 select ]

/-- The second window's operations, the two calls (the masked reciprocal square root again, the row-wise log-softmax) inlined. -/
abbrev ops1 : List (HloOp τ sig (Elt F)) :=
  [ StableHlo.binary main_v47 main_arg3 main_v48 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    StableHlo.nullary main_v49 (iotaInDim S50000 32 0),
    StableHlo.binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v52 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v53 (broadcastInDim S50000 ![] bcast_S_S50000 : (⟨S_, .f32⟩ : BufTy).Contents (Elt F) → (⟨S50000, .f32⟩ : BufTy).Contents (Elt F)),
    StableHlo.unary main_v51 main_v54 (broadcastInDim S850000x1 ![0] bcast_S850000_S850000x1_0 : (⟨S850000, .i32⟩ : BufTy).Contents (Elt F) → (⟨S850000x1, .i32⟩ : BufTy).Contents (Elt F)),
    StableHlo.ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v56 (broadcastInDim S50000 ![] bcast_S_S50000 : (⟨S_, .f32⟩ : BufTy).Contents (Elt F) → (⟨S50000, .f32⟩ : BufTy).Contents (Elt F)),
    StableHlo.binary main_v55 main_v56 main_v57 (cmpf .ogt : (⟨S50000, .f32⟩ : BufTy).Contents (Elt F) → (⟨S50000, .f32⟩ : BufTy).Contents (Elt F) → (⟨S50000, .i1⟩ : BufTy).Contents (Elt F)),
    StableHlo.unary main_v55 main_v58 (Host.rsqrt : (⟨S50000, .f32⟩ : BufTy).Contents (Elt F) → (⟨S50000, .f32⟩ : BufTy).Contents (Elt F)),
    StableHlo.nullary main_cst_13 (constant S_ .f32 0x00000000#32),
    StableHlo.TRef.unary (TRef.of main_cst_13 : TRef sig ⟨S_, .f32⟩) main_call2.v0 id,
    StableHlo.TRef.unary main_call2.v0 main_call2.v1 (broadcastInDim S50000 ![] bcast_S_S50000),
    StableHlo.TRef.ternary (TRef.of main_v57 : TRef sig ⟨S50000, .i1⟩) (TRef.of main_v58 : TRef sig ⟨S50000, .f32⟩) main_call2.v1 main_call2.v2 select,
    StableHlo.nullary main_c_14 (constantI S_ 32 0#32),
    StableHlo.unary main_c_14 main_v60 (broadcastInDim S850000 ![] bcast_S_S850000 : (⟨S_, .i32⟩ : BufTy).Contents (Elt F) → (⟨S850000, .i32⟩ : BufTy).Contents (Elt F)),
    StableHlo.binary main_v50 main_v60 main_v61 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v62 (broadcastInDim S850000 ![] bcast_S_S850000 : (⟨S_, .i32⟩ : BufTy).Contents (Elt F) → (⟨S850000, .i32⟩ : BufTy).Contents (Elt F)),
    StableHlo.binary main_v50 main_v62 main_v63 (addi : (⟨S850000, .i32⟩ : BufTy).Contents (Elt F) → (⟨S850000, .i32⟩ : BufTy).Contents (Elt F) → (⟨S850000, .i32⟩ : BufTy).Contents (Elt F)),
    StableHlo.ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v64 main_v65 (broadcastInDim S850000x1 ![0] bcast_S850000_S850000x1_0 : (⟨S850000, .i32⟩ : BufTy).Contents (Elt F) → (⟨S850000x1, .i32⟩ : BufTy).Contents (Elt F)),
    StableHlo.binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v67 (broadcastInDim S850000 ![] bcast_S_S850000 : (⟨S_, .i32⟩ : BufTy).Contents (Elt F) → (⟨S850000, .i32⟩ : BufTy).Contents (Elt F)),
    StableHlo.binary main_v51 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v69 (broadcastInDim S850000 ![] bcast_S_S850000 : (⟨S_, .i32⟩ : BufTy).Contents (Elt F) → (⟨S850000, .i32⟩ : BufTy).Contents (Elt F)),
    StableHlo.binary main_v51 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v66 main_v73 main_v74 (mulf : (⟨S850000, .f32⟩ : BufTy).Contents (Elt F) → (⟨S850000, .f32⟩ : BufTy).Contents (Elt F) → (⟨S850000, .f32⟩ : BufTy).Contents (Elt F)),
    StableHlo.nullary main_c_18 (constantI S_ 32 0#32),
    StableHlo.unary main_c_18 main_v75 (broadcastInDim S850000 ![] bcast_S_S850000 : (⟨S_, .i32⟩ : BufTy).Contents (Elt F) → (⟨S850000, .i32⟩ : BufTy).Contents (Elt F)),
    StableHlo.binary main_v50 main_v75 main_v76 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v77 (broadcastInDim S850000 ![] bcast_S_S850000 : (⟨S_, .i32⟩ : BufTy).Contents (Elt F) → (⟨S850000, .i32⟩ : BufTy).Contents (Elt F)),
    StableHlo.binary main_v50 main_v77 main_v78 (addi : (⟨S850000, .i32⟩ : BufTy).Contents (Elt F) → (⟨S850000, .i32⟩ : BufTy).Contents (Elt F) → (⟨S850000, .i32⟩ : BufTy).Contents (Elt F)),
    StableHlo.ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v79 main_v80 (broadcastInDim S850000x1 ![0] bcast_S850000_S850000x1_0 : (⟨S850000, .i32⟩ : BufTy).Contents (Elt F) → (⟨S850000x1, .i32⟩ : BufTy).Contents (Elt F)),
    StableHlo.binary main_v48 main_v80 main_v81 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    StableHlo.unary main_v74 main_v82 (broadcastInDim S850000x1 ![0] bcast_S850000_S850000x1_0 : (⟨S850000, .f32⟩ : BufTy).Contents (Elt F) → (⟨S850000x1, .f32⟩ : BufTy).Contents (Elt F)),
    StableHlo.unary main_v82 main_v83 (broadcastInDim S850000x16 ![0, 1] bcast_S850000x1_S850000x16_0_1 : (⟨S850000x1, .f32⟩ : BufTy).Contents (Elt F) → (⟨S850000x16, .f32⟩ : BufTy).Contents (Elt F)),
    StableHlo.binary main_v81 main_v83 main_v84 (mulf : (⟨S850000x16, .f32⟩ : BufTy).Contents (Elt F) → (⟨S850000x16, .f32⟩ : BufTy).Contents (Elt F) → (⟨S850000x16, .f32⟩ : BufTy).Contents (Elt F)),
    StableHlo.nullary main_cst_20 (constant S_ .f32 0x00000000#32),
    StableHlo.unary main_cst_20 main_v85 (broadcastInDim S50000x16 ![] bcast_S_S50000x16 : (⟨S_, .f32⟩ : BufTy).Contents (Elt F) → (⟨S50000x16, .f32⟩ : BufTy).Contents (Elt F)),
    StableHlo.unary main_v51 main_v86 (broadcastInDim S850000x1 ![0] bcast_S850000_S850000x1_0 : (⟨S850000, .i32⟩ : BufTy).Contents (Elt F) → (⟨S850000x1, .i32⟩ : BufTy).Contents (Elt F)),
    StableHlo.ternary main_v85 main_v86 main_v84 main_v87 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    StableHlo.unary main_arg4 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S50000x16 ![0, 1] bcast_S1x16_S50000x16_0_1 : (⟨S1x16, .f32⟩ : BufTy).Contents (Elt F) → (⟨S50000x16, .f32⟩ : BufTy).Contents (Elt F)),
    StableHlo.binary main_v87 main_v89 main_v90 (addf : (⟨S50000x16, .f32⟩ : BufTy).Contents (Elt F) → (⟨S50000x16, .f32⟩ : BufTy).Contents (Elt F) → (⟨S50000x16, .f32⟩ : BufTy).Contents (Elt F)),
    StableHlo.TRef.nullary main_call3.cst (constant S_ .f32 0xFF800000#32),
    StableHlo.TRef.binary (TRef.of main_v90 : TRef sig ⟨S50000x16, .f32⟩) main_call3.cst main_call3.v0 (fun x v => Host.reduce FloatOps.maximumf x v reducesTo_S50000x16_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x16 ![0, 1] bcast_S50000x1_S50000x16_0_1),
    StableHlo.TRef.binary (TRef.of main_v90 : TRef sig ⟨S50000x16, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x16_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x16 ![0, 1] bcast_S50000x1_S50000x16_0_1),
    StableHlo.TRef.binary main_call3.v5 main_call3.v10 main_call3.v11 subf ]

/-- All of @main's operations, in order. -/
abbrev ops : List (HloOp τ sig (Elt F)) := ops0 ++ ops1

/-- The contents after two lines in turn: the second line's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 4096 in
set_option maxHeartbeats 4000000 in
/-- The first window is its line: the callees' bodies unfolded at the calls, sequencing reassociated. -/
theorem part0_eq (c : Dev nD) : main_part0 (F := F) c = seq ops0 := by
  simp only [main_part0, fn_where.body, fn_where_0.body, fn_leaky_relu.body, seq, bind_assoc, pure_bind] <;> rfl

set_option maxRecDepth 4096 in
set_option maxHeartbeats 4000000 in
/-- The second window is its line. -/
theorem part1_eq (c : Dev nD) : main_part1 (F := F) c = seq ops1 := by
  simp only [main_part1, fn_where.body, fn_log_softmax.body, seq, bind_assoc, pure_bind] <;> rfl

/-- @main is the two lines run in turn. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops1_sub : (ops1 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- From any memory with zero counters every fair run of @main terminates, each TensorCore buffer ending at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.1 h).elim (ops0_fresh op) (ops1_fresh op))

end Cert.ReferenceIdeal.RefRun

end
-- ==== Proof.RefRunChunks.lean ====
import proofs.«113601_j43069932044897_1_alg».proof.Proof.RefRunOps
import proofs.«113601_j43069932044897_1_alg».proof.Proof.Spec

/-!
  The reference's two windows cut into consecutive short lines, one per stage of the network (the edge list's
  rows and the self loops; the degrees; the comparison, the reciprocal square root and the scalar zero; the
  selection between them; the edge weights; a propagation; the rectifier — and the same again with the
  log-softmax last).  Each window is its lines in turn, so the fold over a window is the lines' folds nested,
  and a buffer a line does not write keeps its contents across that line.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]
variable {F : FTy → Type} [FloatOps F]

set_option maxRecDepth 16384
set_option maxHeartbeats 4000000

/-- The rows of the edge list flattened, the self loops appended to each, and the first dense product. -/
abbrev cA : List (HloOp τ sig (Elt F)) :=
  [ StableHlo.unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S50000x128_S128x100_S50000x100_1_0_0_1_n_n none l r) : (⟨S50000x128, .f32⟩ : BufTy).Contents (Elt F) → (⟨S128x100, .f32⟩ : BufTy).Contents (Elt F) → (⟨S50000x100, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The degrees: ones scatter-added at the targets. -/
abbrev cB1 : List (HloOp τ sig (Elt F)) :=
  [ StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ]

/-- Where the degree is positive, its reciprocal square root, and the scalar zero. -/
abbrev cB2 : List (HloOp τ sig (Elt F)) :=
  [ StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32) ]

/-- The selection between the reciprocal square root and zero. -/
abbrev cB3 : List (HloOp τ sig (Elt F)) :=
  [ StableHlo.TRef.unary (TRef.of main_cst_2 : TRef sig ⟨S_, .f32⟩) main_call0.v0 id,
    StableHlo.TRef.unary main_call0.v0 main_call0.v1 (broadcastInDim S50000 ![] bcast_S_S50000),
    StableHlo.TRef.ternary (TRef.of main_v13 : TRef sig ⟨S50000, .i1⟩) (TRef.of main_v14 : TRef sig ⟨S50000, .f32⟩) main_call0.v1 main_call0.v2 select ]

/-- The edge weights: the normalisation gathered at the wrapped sources and targets, multiplied. -/
abbrev cC : List (HloOp τ sig (Elt F)) :=
  [ StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v6 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v6 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v7 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)) ]

/-- The first propagation: gather at the sources, scale, scatter-add at the targets, add the bias. -/
abbrev cD : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v6 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v6 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v4 main_v36 main_v37 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    StableHlo.unary main_v30 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x100 ![0, 1] bcast_S850000x1_S850000x100_0_1 : (⟨S850000x1, .f32⟩ : BufTy).Contents (Elt F) → (⟨S850000x100, .f32⟩ : BufTy).Contents (Elt F)),
    StableHlo.binary main_v37 main_v39 main_v40 (mulf : (⟨S850000x100, .f32⟩ : BufTy).Contents (Elt F) → (⟨S850000x100, .f32⟩ : BufTy).Contents (Elt F) → (⟨S850000x100, .f32⟩ : BufTy).Contents (Elt F)),
    StableHlo.nullary main_cst_8 (constant S_ .f32 0x00000000#32),
    StableHlo.unary main_cst_8 main_v41 (broadcastInDim S50000x100 ![] bcast_S_S50000x100 : (⟨S_, .f32⟩ : BufTy).Contents (Elt F) → (⟨S50000x100, .f32⟩ : BufTy).Contents (Elt F)),
    StableHlo.unary main_v7 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)),
    StableHlo.unary main_arg2 main_v44 (broadcastInDim S1x100 ![1] bcast_S100_S1x100_1 : (⟨S100, .f32⟩ : BufTy).Contents (Elt F) → (⟨S1x100, .f32⟩ : BufTy).Contents (Elt F)),
    StableHlo.unary main_v44 main_v45 (broadcastInDim S50000x100 ![0, 1] bcast_S1x100_S50000x100_0_1 : (⟨S1x100, .f32⟩ : BufTy).Contents (Elt F) → (⟨S50000x100, .f32⟩ : BufTy).Contents (Elt F)),
    StableHlo.binary main_v43 main_v45 main_v46 (addf : (⟨S50000x100, .f32⟩ : BufTy).Contents (Elt F) → (⟨S50000x100, .f32⟩ : BufTy).Contents (Elt F) → (⟨S50000x100, .f32⟩ : BufTy).Contents (Elt F)) ]

/-- The slope of the leaky rectifier. -/
abbrev cE1 : List (HloOp τ sig (Elt F)) :=
  [ StableHlo.nullary main_cst_9 (constant S_ .f32 0x3C23D70A#32) ]

/-- The leaky rectifier. -/
abbrev cE2 : List (HloOp τ sig (Elt F)) :=
  [ StableHlo.TRef.nullary main_call1.cst (constant S_ .f32 0x00000000#32),
    StableHlo.TRef.unary main_call1.cst main_call1.v0 (broadcastInDim S50000x100 ![] bcast_S_S50000x100),
    StableHlo.TRef.binary (TRef.of main_v46 : TRef sig ⟨S50000x100, .f32⟩) main_call1.v0 main_call1.v1 (cmpf .oge),
    StableHlo.TRef.unary (TRef.of main_cst_9 : TRef sig ⟨S_, .f32⟩) main_call1.v2 id,
    StableHlo.TRef.unary main_call1.v2 main_call1.v3 (broadcastInDim S50000x100 ![] bcast_S_S50000x100),
    StableHlo.TRef.binary main_call1.v3 (TRef.of main_v46 : TRef sig ⟨S50000x100, .f32⟩) main_call1.v4 mulf,
    StableHlo.TRef.ternary main_call1.v1 (TRef.of main_v46 : TRef sig ⟨S50000x100, .f32⟩) main_call1.v4 main_call1.call0.v0 select ]

/-- The second dense product, and the self loops appended to the flattened rows. -/
abbrev cF : List (HloOp τ sig (Elt F)) :=
  [ StableHlo.binary main_v47 main_arg3 main_v48 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    StableHlo.nullary main_v49 (iotaInDim S50000 32 0),
    StableHlo.binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The degrees, a second time. -/
abbrev cG1 : List (HloOp τ sig (Elt F)) :=
  [ StableHlo.nullary main_cst_10 (constant S_ .f32 0x3F800000#32),
    StableHlo.unary main_cst_10 main_v52 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v53 (broadcastInDim S50000 ![] bcast_S_S50000 : (⟨S_, .f32⟩ : BufTy).Contents (Elt F) → (⟨S50000, .f32⟩ : BufTy).Contents (Elt F)),
    StableHlo.unary main_v51 main_v54 (broadcastInDim S850000x1 ![0] bcast_S850000_S850000x1_0 : (⟨S850000, .i32⟩ : BufTy).Contents (Elt F) → (⟨S850000x1, .i32⟩ : BufTy).Contents (Elt F)),
    StableHlo.ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ]

/-- Where the degree is positive, its reciprocal square root, and the scalar zero, a second time. -/
abbrev cG2 : List (HloOp τ sig (Elt F)) :=
  [ StableHlo.nullary main_cst_12 (constant S_ .f32 0x00000000#32),
    StableHlo.unary main_cst_12 main_v56 (broadcastInDim S50000 ![] bcast_S_S50000 : (⟨S_, .f32⟩ : BufTy).Contents (Elt F) → (⟨S50000, .f32⟩ : BufTy).Contents (Elt F)),
    StableHlo.binary main_v55 main_v56 main_v57 (cmpf .ogt : (⟨S50000, .f32⟩ : BufTy).Contents (Elt F) → (⟨S50000, .f32⟩ : BufTy).Contents (Elt F) → (⟨S50000, .i1⟩ : BufTy).Contents (Elt F)),
    StableHlo.unary main_v55 main_v58 (Host.rsqrt : (⟨S50000, .f32⟩ : BufTy).Contents (Elt F) → (⟨S50000, .f32⟩ : BufTy).Contents (Elt F)),
    StableHlo.nullary main_cst_13 (constant S_ .f32 0x00000000#32) ]

/-- The selection between the reciprocal square root and zero, a second time. -/
abbrev cG3 : List (HloOp τ sig (Elt F)) :=
  [ StableHlo.TRef.unary (TRef.of main_cst_13 : TRef sig ⟨S_, .f32⟩) main_call2.v0 id,
    StableHlo.TRef.unary main_call2.v0 main_call2.v1 (broadcastInDim S50000 ![] bcast_S_S50000),
    StableHlo.TRef.ternary (TRef.of main_v57 : TRef sig ⟨S50000, .i1⟩) (TRef.of main_v58 : TRef sig ⟨S50000, .f32⟩) main_call2.v1 main_call2.v2 select ]

/-- The edge weights, a second time. -/
abbrev cH : List (HloOp τ sig (Elt F)) :=
  [ StableHlo.nullary main_c_14 (constantI S_ 32 0#32),
    StableHlo.unary main_c_14 main_v60 (broadcastInDim S850000 ![] bcast_S_S850000 : (⟨S_, .i32⟩ : BufTy).Contents (Elt F) → (⟨S850000, .i32⟩ : BufTy).Contents (Elt F)),
    StableHlo.binary main_v50 main_v60 main_v61 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v62 (broadcastInDim S850000 ![] bcast_S_S850000 : (⟨S_, .i32⟩ : BufTy).Contents (Elt F) → (⟨S850000, .i32⟩ : BufTy).Contents (Elt F)),
    StableHlo.binary main_v50 main_v62 main_v63 (addi : (⟨S850000, .i32⟩ : BufTy).Contents (Elt F) → (⟨S850000, .i32⟩ : BufTy).Contents (Elt F) → (⟨S850000, .i32⟩ : BufTy).Contents (Elt F)),
    StableHlo.ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v64 main_v65 (broadcastInDim S850000x1 ![0] bcast_S850000_S850000x1_0 : (⟨S850000, .i32⟩ : BufTy).Contents (Elt F) → (⟨S850000x1, .i32⟩ : BufTy).Contents (Elt F)),
    StableHlo.binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v67 (broadcastInDim S850000 ![] bcast_S_S850000 : (⟨S_, .i32⟩ : BufTy).Contents (Elt F) → (⟨S850000, .i32⟩ : BufTy).Contents (Elt F)),
    StableHlo.binary main_v51 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v69 (broadcastInDim S850000 ![] bcast_S_S850000 : (⟨S_, .i32⟩ : BufTy).Contents (Elt F) → (⟨S850000, .i32⟩ : BufTy).Contents (Elt F)),
    StableHlo.binary main_v51 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v66 main_v73 main_v74 (mulf : (⟨S850000, .f32⟩ : BufTy).Contents (Elt F) → (⟨S850000, .f32⟩ : BufTy).Contents (Elt F) → (⟨S850000, .f32⟩ : BufTy).Contents (Elt F)) ]

/-- The second propagation. -/
abbrev cI : List (HloOp τ sig (Elt F)) :=
  [ StableHlo.nullary main_c_18 (constantI S_ 32 0#32),
    StableHlo.unary main_c_18 main_v75 (broadcastInDim S850000 ![] bcast_S_S850000 : (⟨S_, .i32⟩ : BufTy).Contents (Elt F) → (⟨S850000, .i32⟩ : BufTy).Contents (Elt F)),
    StableHlo.binary main_v50 main_v75 main_v76 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v77 (broadcastInDim S850000 ![] bcast_S_S850000 : (⟨S_, .i32⟩ : BufTy).Contents (Elt F) → (⟨S850000, .i32⟩ : BufTy).Contents (Elt F)),
    StableHlo.binary main_v50 main_v77 main_v78 (addi : (⟨S850000, .i32⟩ : BufTy).Contents (Elt F) → (⟨S850000, .i32⟩ : BufTy).Contents (Elt F) → (⟨S850000, .i32⟩ : BufTy).Contents (Elt F)),
    StableHlo.ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v79 main_v80 (broadcastInDim S850000x1 ![0] bcast_S850000_S850000x1_0 : (⟨S850000, .i32⟩ : BufTy).Contents (Elt F) → (⟨S850000x1, .i32⟩ : BufTy).Contents (Elt F)),
    StableHlo.binary main_v48 main_v80 main_v81 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    StableHlo.unary main_v74 main_v82 (broadcastInDim S850000x1 ![0] bcast_S850000_S850000x1_0 : (⟨S850000, .f32⟩ : BufTy).Contents (Elt F) → (⟨S850000x1, .f32⟩ : BufTy).Contents (Elt F)),
    StableHlo.unary main_v82 main_v83 (broadcastInDim S850000x16 ![0, 1] bcast_S850000x1_S850000x16_0_1 : (⟨S850000x1, .f32⟩ : BufTy).Contents (Elt F) → (⟨S850000x16, .f32⟩ : BufTy).Contents (Elt F)),
    StableHlo.binary main_v81 main_v83 main_v84 (mulf : (⟨S850000x16, .f32⟩ : BufTy).Contents (Elt F) → (⟨S850000x16, .f32⟩ : BufTy).Contents (Elt F) → (⟨S850000x16, .f32⟩ : BufTy).Contents (Elt F)),
    StableHlo.nullary main_cst_20 (constant S_ .f32 0x00000000#32),
    StableHlo.unary main_cst_20 main_v85 (broadcastInDim S50000x16 ![] bcast_S_S50000x16 : (⟨S_, .f32⟩ : BufTy).Contents (Elt F) → (⟨S50000x16, .f32⟩ : BufTy).Contents (Elt F)),
    StableHlo.unary main_v51 main_v86 (broadcastInDim S850000x1 ![0] bcast_S850000_S850000x1_0 : (⟨S850000, .i32⟩ : BufTy).Contents (Elt F) → (⟨S850000x1, .i32⟩ : BufTy).Contents (Elt F)),
    StableHlo.ternary main_v85 main_v86 main_v84 main_v87 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    StableHlo.unary main_arg4 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S50000x16 ![0, 1] bcast_S1x16_S50000x16_0_1 : (⟨S1x16, .f32⟩ : BufTy).Contents (Elt F) → (⟨S50000x16, .f32⟩ : BufTy).Contents (Elt F)),
    StableHlo.binary main_v87 main_v89 main_v90 (addf : (⟨S50000x16, .f32⟩ : BufTy).Contents (Elt F) → (⟨S50000x16, .f32⟩ : BufTy).Contents (Elt F) → (⟨S50000x16, .f32⟩ : BufTy).Contents (Elt F)) ]

/-- The row-wise log-softmax. -/
abbrev cJ : List (HloOp τ sig (Elt F)) :=
  [ StableHlo.TRef.nullary main_call3.cst (constant S_ .f32 0xFF800000#32),
    StableHlo.TRef.binary (TRef.of main_v90 : TRef sig ⟨S50000x16, .f32⟩) main_call3.cst main_call3.v0 (fun x v => Host.reduce FloatOps.maximumf x v reducesTo_S50000x16_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x16 ![0, 1] bcast_S50000x1_S50000x16_0_1),
    StableHlo.TRef.binary (TRef.of main_v90 : TRef sig ⟨S50000x16, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x16_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x16 ![0, 1] bcast_S50000x1_S50000x16_0_1),
    StableHlo.TRef.binary main_call3.v5 main_call3.v10 main_call3.v11 subf ]

/-- The first window is its lines in turn. -/
theorem ops0_split : (ops0 (F := F)) = cA ++ (cB1 ++ (cB2 ++ (cB3 ++ (cC ++ (cD ++ (cE1 ++ (cE2))))))) := rfl

/-- The second window is its lines in turn. -/
theorem ops1_split : (ops1 (F := F)) = cF ++ (cG1 ++ (cG2 ++ (cG3 ++ (cH ++ (cI ++ (cJ)))))) := rfl

/-- The fold over the first window, as its lines' folds nested. -/
theorem after_ops0 (V : Valuation τ sig (Elt Ideal)) :
    after (ops0 (F := Ideal)) V = after (cE2 (F := Ideal)) (after (cE1 (F := Ideal)) (after (cD (F := Ideal)) (after (cC (F := Ideal)) (after (cB3 (F := Ideal)) (after (cB2 (F := Ideal)) (after (cB1 (F := Ideal)) (after (cA (F := Ideal)) (V)))))))) := by
  rw [ops0_split]; simp only [after_append]

/-- The fold over the second window, as its lines' folds nested. -/
theorem after_ops1 (W : Valuation τ sig (Elt Ideal)) :
    after (ops1 (F := Ideal)) W = after (cJ (F := Ideal)) (after (cI (F := Ideal)) (after (cH (F := Ideal)) (after (cG3 (F := Ideal)) (after (cG2 (F := Ideal)) (after (cG1 (F := Ideal)) (after (cF (F := Ideal)) (W))))))) := by
  rw [ops1_split]; simp only [after_append]

/-- The selection of the masked reciprocal square root: `r` where `p`, else the scalar `z` at every node. -/
def dinvSel (p : IVec S50000 1) (r : FVec Ideal S50000 .f32) (z : FVec Ideal S_ .f32) : FVec Ideal S50000 .f32 :=
  select p r (broadcastInDim S50000 ![] bcast_S_S50000 (id z))

/-- The leaky rectifier with slope the scalar `a`: `h` where `h ≥ 0`, else `a · h`. -/
def leakySel (h : FVec Ideal S50000x100 .f32) (a : FVec Ideal S_ .f32) : FVec Ideal S50000x100 .f32 :=
  select (cmpf .oge h (broadcastInDim S50000x100 ![] bcast_S_S50000x100 (constant (F := Ideal) S_ .f32 0x00000000#32)))
    h (mulf (broadcastInDim S50000x100 ![] bcast_S_S50000x100 (id a)) h)

/-! A buffer a line does not write keeps its contents across the line. -/

theorem cE1_keeps_v46 (X : Valuation τ sig (Elt Ideal)) :
    after (cE1 (F := Ideal)) X (main_v46 : DevRef τ sig) = X (main_v46 : DevRef τ sig) := by
  after_results_simp

theorem cC_keeps_v4 (X : Valuation τ sig (Elt Ideal)) :
    after (cC (F := Ideal)) X (main_v4 : DevRef τ sig) = X (main_v4 : DevRef τ sig) := by
  after_results_simp

theorem cC_keeps_arg2 (X : Valuation τ sig (Elt Ideal)) :
    after (cC (F := Ideal)) X (main_arg2 : DevRef τ sig) = X (main_arg2 : DevRef τ sig) := by
  after_results_simp

theorem cC_keeps_v6 (X : Valuation τ sig (Elt Ideal)) :
    after (cC (F := Ideal)) X (main_v6 : DevRef τ sig) = X (main_v6 : DevRef τ sig) := by
  after_results_simp

theorem cC_keeps_v7 (X : Valuation τ sig (Elt Ideal)) :
    after (cC (F := Ideal)) X (main_v7 : DevRef τ sig) = X (main_v7 : DevRef τ sig) := by
  after_results_simp

theorem cB3_keeps_v4 (X : Valuation τ sig (Elt Ideal)) :
    after (cB3 (F := Ideal)) X (main_v4 : DevRef τ sig) = X (main_v4 : DevRef τ sig) := by
  after_results_simp

theorem cB3_keeps_arg2 (X : Valuation τ sig (Elt Ideal)) :
    after (cB3 (F := Ideal)) X (main_arg2 : DevRef τ sig) = X (main_arg2 : DevRef τ sig) := by
  after_results_simp

theorem cB3_keeps_v6 (X : Valuation τ sig (Elt Ideal)) :
    after (cB3 (F := Ideal)) X (main_v6 : DevRef τ sig) = X (main_v6 : DevRef τ sig) := by
  after_results_simp

theorem cB3_keeps_v7 (X : Valuation τ sig (Elt Ideal)) :
    after (cB3 (F := Ideal)) X (main_v7 : DevRef τ sig) = X (main_v7 : DevRef τ sig) := by
  after_results_simp

theorem cB2_keeps_v4 (X : Valuation τ sig (Elt Ideal)) :
    after (cB2 (F := Ideal)) X (main_v4 : DevRef τ sig) = X (main_v4 : DevRef τ sig) := by
  after_results_simp

theorem cB2_keeps_arg2 (X : Valuation τ sig (Elt Ideal)) :
    after (cB2 (F := Ideal)) X (main_arg2 : DevRef τ sig) = X (main_arg2 : DevRef τ sig) := by
  after_results_simp

theorem cB2_keeps_v6 (X : Valuation τ sig (Elt Ideal)) :
    after (cB2 (F := Ideal)) X (main_v6 : DevRef τ sig) = X (main_v6 : DevRef τ sig) := by
  after_results_simp

theorem cB2_keeps_v7 (X : Valuation τ sig (Elt Ideal)) :
    after (cB2 (F := Ideal)) X (main_v7 : DevRef τ sig) = X (main_v7 : DevRef τ sig) := by
  after_results_simp

theorem cB1_keeps_v4 (X : Valuation τ sig (Elt Ideal)) :
    after (cB1 (F := Ideal)) X (main_v4 : DevRef τ sig) = X (main_v4 : DevRef τ sig) := by
  after_results_simp

theorem cB1_keeps_arg2 (X : Valuation τ sig (Elt Ideal)) :
    after (cB1 (F := Ideal)) X (main_arg2 : DevRef τ sig) = X (main_arg2 : DevRef τ sig) := by
  after_results_simp

theorem cB1_keeps_v6 (X : Valuation τ sig (Elt Ideal)) :
    after (cB1 (F := Ideal)) X (main_v6 : DevRef τ sig) = X (main_v6 : DevRef τ sig) := by
  after_results_simp

theorem cB1_keeps_v7 (X : Valuation τ sig (Elt Ideal)) :
    after (cB1 (F := Ideal)) X (main_v7 : DevRef τ sig) = X (main_v7 : DevRef τ sig) := by
  after_results_simp

theorem cA_keeps_arg2 (X : Valuation τ sig (Elt Ideal)) :
    after (cA (F := Ideal)) X (main_arg2 : DevRef τ sig) = X (main_arg2 : DevRef τ sig) := by
  after_results_simp

theorem cE2_keeps_v1 (X : Valuation τ sig (Elt Ideal)) :
    after (cE2 (F := Ideal)) X (main_v1 : DevRef τ sig) = X (main_v1 : DevRef τ sig) := by
  after_results_simp

theorem cE1_keeps_v1 (X : Valuation τ sig (Elt Ideal)) :
    after (cE1 (F := Ideal)) X (main_v1 : DevRef τ sig) = X (main_v1 : DevRef τ sig) := by
  after_results_simp

theorem cD_keeps_v1 (X : Valuation τ sig (Elt Ideal)) :
    after (cD (F := Ideal)) X (main_v1 : DevRef τ sig) = X (main_v1 : DevRef τ sig) := by
  after_results_simp

theorem cC_keeps_v1 (X : Valuation τ sig (Elt Ideal)) :
    after (cC (F := Ideal)) X (main_v1 : DevRef τ sig) = X (main_v1 : DevRef τ sig) := by
  after_results_simp

theorem cB3_keeps_v1 (X : Valuation τ sig (Elt Ideal)) :
    after (cB3 (F := Ideal)) X (main_v1 : DevRef τ sig) = X (main_v1 : DevRef τ sig) := by
  after_results_simp

theorem cB2_keeps_v1 (X : Valuation τ sig (Elt Ideal)) :
    after (cB2 (F := Ideal)) X (main_v1 : DevRef τ sig) = X (main_v1 : DevRef τ sig) := by
  after_results_simp

theorem cB1_keeps_v1 (X : Valuation τ sig (Elt Ideal)) :
    after (cB1 (F := Ideal)) X (main_v1 : DevRef τ sig) = X (main_v1 : DevRef τ sig) := by
  after_results_simp

theorem cE2_keeps_v3 (X : Valuation τ sig (Elt Ideal)) :
    after (cE2 (F := Ideal)) X (main_v3 : DevRef τ sig) = X (main_v3 : DevRef τ sig) := by
  after_results_simp

theorem cE1_keeps_v3 (X : Valuation τ sig (Elt Ideal)) :
    after (cE1 (F := Ideal)) X (main_v3 : DevRef τ sig) = X (main_v3 : DevRef τ sig) := by
  after_results_simp

theorem cD_keeps_v3 (X : Valuation τ sig (Elt Ideal)) :
    after (cD (F := Ideal)) X (main_v3 : DevRef τ sig) = X (main_v3 : DevRef τ sig) := by
  after_results_simp

theorem cC_keeps_v3 (X : Valuation τ sig (Elt Ideal)) :
    after (cC (F := Ideal)) X (main_v3 : DevRef τ sig) = X (main_v3 : DevRef τ sig) := by
  after_results_simp

theorem cB3_keeps_v3 (X : Valuation τ sig (Elt Ideal)) :
    after (cB3 (F := Ideal)) X (main_v3 : DevRef τ sig) = X (main_v3 : DevRef τ sig) := by
  after_results_simp

theorem cB2_keeps_v3 (X : Valuation τ sig (Elt Ideal)) :
    after (cB2 (F := Ideal)) X (main_v3 : DevRef τ sig) = X (main_v3 : DevRef τ sig) := by
  after_results_simp

theorem cB1_keeps_v3 (X : Valuation τ sig (Elt Ideal)) :
    after (cB1 (F := Ideal)) X (main_v3 : DevRef τ sig) = X (main_v3 : DevRef τ sig) := by
  after_results_simp

theorem cH_keeps_v48 (X : Valuation τ sig (Elt Ideal)) :
    after (cH (F := Ideal)) X (main_v48 : DevRef τ sig) = X (main_v48 : DevRef τ sig) := by
  after_results_simp

theorem cH_keeps_arg4 (X : Valuation τ sig (Elt Ideal)) :
    after (cH (F := Ideal)) X (main_arg4 : DevRef τ sig) = X (main_arg4 : DevRef τ sig) := by
  after_results_simp

theorem cH_keeps_v50 (X : Valuation τ sig (Elt Ideal)) :
    after (cH (F := Ideal)) X (main_v50 : DevRef τ sig) = X (main_v50 : DevRef τ sig) := by
  after_results_simp

theorem cH_keeps_v51 (X : Valuation τ sig (Elt Ideal)) :
    after (cH (F := Ideal)) X (main_v51 : DevRef τ sig) = X (main_v51 : DevRef τ sig) := by
  after_results_simp

theorem cG3_keeps_v48 (X : Valuation τ sig (Elt Ideal)) :
    after (cG3 (F := Ideal)) X (main_v48 : DevRef τ sig) = X (main_v48 : DevRef τ sig) := by
  after_results_simp

theorem cG3_keeps_arg4 (X : Valuation τ sig (Elt Ideal)) :
    after (cG3 (F := Ideal)) X (main_arg4 : DevRef τ sig) = X (main_arg4 : DevRef τ sig) := by
  after_results_simp

theorem cG3_keeps_v50 (X : Valuation τ sig (Elt Ideal)) :
    after (cG3 (F := Ideal)) X (main_v50 : DevRef τ sig) = X (main_v50 : DevRef τ sig) := by
  after_results_simp

theorem cG3_keeps_v51 (X : Valuation τ sig (Elt Ideal)) :
    after (cG3 (F := Ideal)) X (main_v51 : DevRef τ sig) = X (main_v51 : DevRef τ sig) := by
  after_results_simp

theorem cG2_keeps_v48 (X : Valuation τ sig (Elt Ideal)) :
    after (cG2 (F := Ideal)) X (main_v48 : DevRef τ sig) = X (main_v48 : DevRef τ sig) := by
  after_results_simp

theorem cG2_keeps_arg4 (X : Valuation τ sig (Elt Ideal)) :
    after (cG2 (F := Ideal)) X (main_arg4 : DevRef τ sig) = X (main_arg4 : DevRef τ sig) := by
  after_results_simp

theorem cG2_keeps_v50 (X : Valuation τ sig (Elt Ideal)) :
    after (cG2 (F := Ideal)) X (main_v50 : DevRef τ sig) = X (main_v50 : DevRef τ sig) := by
  after_results_simp

theorem cG2_keeps_v51 (X : Valuation τ sig (Elt Ideal)) :
    after (cG2 (F := Ideal)) X (main_v51 : DevRef τ sig) = X (main_v51 : DevRef τ sig) := by
  after_results_simp

theorem cG1_keeps_v48 (X : Valuation τ sig (Elt Ideal)) :
    after (cG1 (F := Ideal)) X (main_v48 : DevRef τ sig) = X (main_v48 : DevRef τ sig) := by
  after_results_simp

theorem cG1_keeps_arg4 (X : Valuation τ sig (Elt Ideal)) :
    after (cG1 (F := Ideal)) X (main_arg4 : DevRef τ sig) = X (main_arg4 : DevRef τ sig) := by
  after_results_simp

theorem cG1_keeps_v50 (X : Valuation τ sig (Elt Ideal)) :
    after (cG1 (F := Ideal)) X (main_v50 : DevRef τ sig) = X (main_v50 : DevRef τ sig) := by
  after_results_simp

theorem cG1_keeps_v51 (X : Valuation τ sig (Elt Ideal)) :
    after (cG1 (F := Ideal)) X (main_v51 : DevRef τ sig) = X (main_v51 : DevRef τ sig) := by
  after_results_simp

theorem cF_keeps_arg4 (X : Valuation τ sig (Elt Ideal)) :
    after (cF (F := Ideal)) X (main_arg4 : DevRef τ sig) = X (main_arg4 : DevRef τ sig) := by
  after_results_simp

end Cert.ReferenceIdeal.RefRun

end
-- ==== Proof.RefRunV0.lean ====
import proofs.«113601_j43069932044897_1_alg».proof.Proof.RefRunChunks

/-!
  The first window's lines, one at a time: over any contents before the line, the buffer a later line reads
  holds the matching stage of the network applied to what the line's own reads held.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]

set_option maxRecDepth 16384
set_option maxHeartbeats 4000000
attribute [local irreducible] Host.gather Host.scatterAdd concatenate extractStridedSlice shapeCast iotaInDim broadcastInDim Host.rsqrt

/-- Row 0 of the edge list, flattened. -/
theorem cA_v1 (X : Valuation τ sig (Elt Ideal)) :
    after (cA (F := Ideal)) X (main_v1 : DevRef τ sig) = (fun i => shapeCast S800000 (extractStridedSlice S1x800000 ![0, 0] (X (main_arg5 : DevRef τ sig)) slices_S2x800000_S1x800000_0_0) shapeCasts_S1x800000_S800000 i) := by
  after_results <;> rfl

/-- Row 1 of the edge list, flattened. -/
theorem cA_v3 (X : Valuation τ sig (Elt Ideal)) :
    after (cA (F := Ideal)) X (main_v3 : DevRef τ sig) = (fun i => shapeCast S800000 (extractStridedSlice S1x800000 ![1, 0] (X (main_arg5 : DevRef τ sig)) slices_S2x800000_S1x800000_1_0) shapeCasts_S1x800000_S800000 i) := by
  after_results <;> rfl

/-- The first dense product. -/
theorem cA_v4 (X : Valuation τ sig (Elt Ideal)) :
    after (cA (F := Ideal)) X (main_v4 : DevRef τ sig) = Cert.Spec.dense1 (X (main_arg0 : DevRef τ sig)) (X (main_arg1 : DevRef τ sig)) := by
  after_results <;> rfl

/-- The sources. -/
theorem cA_v6 (X : Valuation τ sig (Elt Ideal)) :
    after (cA (F := Ideal)) X (main_v6 : DevRef τ sig) = Cert.Spec.srcOf (X (main_arg5 : DevRef τ sig)) := by
  after_results <;> rfl

/-- The targets. -/
theorem cA_v7 (X : Valuation τ sig (Elt Ideal)) :
    after (cA (F := Ideal)) X (main_v7 : DevRef τ sig) = Cert.Spec.dstOf (X (main_arg5 : DevRef τ sig)) := by
  after_results <;> rfl

/-- The degrees. -/
theorem cB1_v11 (X : Valuation τ sig (Elt Ideal)) :
    after (cB1 (F := Ideal)) X (main_v11 : DevRef τ sig) = Cert.Spec.degOf (X (main_v7 : DevRef τ sig)) := by
  after_results <;> rfl

/-- Where the degree is positive. -/
theorem cB2_v13 (X : Valuation τ sig (Elt Ideal)) :
    after (cB2 (F := Ideal)) X (main_v13 : DevRef τ sig) = cmpf (F := Ideal) (s := S50000) (φ := .f32) .ogt (X (main_v11 : DevRef τ sig)) (broadcastInDim S50000 ![] bcast_S_S50000 (constant (F := Ideal) S_ .f32 0x00000000#32)) := by
  after_results <;> rfl

/-- The reciprocal square root of the degree. -/
theorem cB2_v14 (X : Valuation τ sig (Elt Ideal)) :
    after (cB2 (F := Ideal)) X (main_v14 : DevRef τ sig) = Host.rsqrt (F := Ideal) (s := S50000) (φ := .f32) (X (main_v11 : DevRef τ sig)) := by
  after_results <;> rfl

/-- The scalar zero. -/
theorem cB2_cst_2 (X : Valuation τ sig (Elt Ideal)) :
    after (cB2 (F := Ideal)) X (main_cst_2 : DevRef τ sig) = (constant (F := Ideal) S_ .f32 0x00000000#32) := by
  after_results <;> rfl

/-- The selection. -/
theorem cB3_v15 (X : Valuation τ sig (Elt Ideal)) :
    after (cB3 (F := Ideal)) X (main_v15 : DevRef τ sig) = dinvSel (X (main_v13 : DevRef τ sig)) (X (main_v14 : DevRef τ sig)) (X (main_cst_2 : DevRef τ sig)) := by
  after_results <;> rfl

/-- The edge weights, over whatever normalisation the buffer held. -/
theorem cC_v30 (X : Valuation τ sig (Elt Ideal)) :
    after (cC (F := Ideal)) X (main_v30 : DevRef τ sig) = mulf (F := Ideal) (s := S850000) (φ := .f32) (Host.gather gather_S50000_S850000x1_S850000_n_0_n_n_0_1_1 (X (main_v15 : DevRef τ sig)) (Cert.Spec.wrapIdx (X (main_v6 : DevRef τ sig)))) (Host.gather gather_S50000_S850000x1_S850000_n_0_n_n_0_1_1 (X (main_v15 : DevRef τ sig)) (Cert.Spec.wrapIdx (X (main_v7 : DevRef τ sig)))) := by
  after_results <;> rfl

/-- The first propagation. -/
theorem cD_v46 (X : Valuation τ sig (Elt Ideal)) :
    after (cD (F := Ideal)) X (main_v46 : DevRef τ sig) = Cert.Spec.conv100 (X (main_v4 : DevRef τ sig)) (X (main_arg2 : DevRef τ sig)) (X (main_v6 : DevRef τ sig)) (X (main_v7 : DevRef τ sig)) (X (main_v30 : DevRef τ sig)) := by
  after_results <;> rfl

/-- The slope. -/
theorem cE1_cst_9 (X : Valuation τ sig (Elt Ideal)) :
    after (cE1 (F := Ideal)) X (main_cst_9 : DevRef τ sig) = (constant (F := Ideal) S_ .f32 0x3C23D70A#32) := by
  after_results <;> rfl

/-- The hidden layer. -/
theorem cE2_v47 (X : Valuation τ sig (Elt Ideal)) :
    after (cE2 (F := Ideal)) X (main_v47 : DevRef τ sig) = leakySel (X (main_v46 : DevRef τ sig)) (X (main_cst_9 : DevRef τ sig)) := by
  after_results <;> rfl

end Cert.ReferenceIdeal.RefRun

end
-- ==== Proof.RefRunV1.lean ====
import proofs.«113601_j43069932044897_1_alg».proof.Proof.RefRunChunks

/-!
  The second window's lines but the last, one at a time: over any contents before the line, the buffer a later
  line reads holds the matching stage of the network applied to what the line's own reads held.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]

set_option maxRecDepth 16384
set_option maxHeartbeats 4000000
attribute [local irreducible] Host.gather Host.scatterAdd concatenate extractStridedSlice shapeCast iotaInDim broadcastInDim Host.rsqrt

/-- The second dense product. -/
theorem cF_v48 (X : Valuation τ sig (Elt Ideal)) :
    after (cF (F := Ideal)) X (main_v48 : DevRef τ sig) = Cert.Spec.dense2 (X (main_v47 : DevRef τ sig)) (X (main_arg3 : DevRef τ sig)) := by
  after_results <;> rfl

/-- The sources, from the flattened row. -/
theorem cF_v50 (X : Valuation τ sig (Elt Ideal)) :
    after (cF (F := Ideal)) X (main_v50 : DevRef τ sig) = (concatenate S850000 0 [⟨S800000, X (main_v1 : DevRef τ sig)⟩, ⟨S50000, iotaInDim S50000 32 0⟩] concatenates_S800000_S50000_S850000_d0) := by
  after_results <;> rfl

/-- The targets, from the flattened row. -/
theorem cF_v51 (X : Valuation τ sig (Elt Ideal)) :
    after (cF (F := Ideal)) X (main_v51 : DevRef τ sig) = (concatenate S850000 0 [⟨S800000, X (main_v3 : DevRef τ sig)⟩, ⟨S50000, iotaInDim S50000 32 0⟩] concatenates_S800000_S50000_S850000_d0) := by
  after_results <;> rfl

/-- The degrees. -/
theorem cG1_v55 (X : Valuation τ sig (Elt Ideal)) :
    after (cG1 (F := Ideal)) X (main_v55 : DevRef τ sig) = Cert.Spec.degOf (X (main_v51 : DevRef τ sig)) := by
  after_results <;> rfl

/-- Where the degree is positive. -/
theorem cG2_v57 (X : Valuation τ sig (Elt Ideal)) :
    after (cG2 (F := Ideal)) X (main_v57 : DevRef τ sig) = cmpf (F := Ideal) (s := S50000) (φ := .f32) .ogt (X (main_v55 : DevRef τ sig)) (broadcastInDim S50000 ![] bcast_S_S50000 (constant (F := Ideal) S_ .f32 0x00000000#32)) := by
  after_results <;> rfl

/-- The reciprocal square root of the degree. -/
theorem cG2_v58 (X : Valuation τ sig (Elt Ideal)) :
    after (cG2 (F := Ideal)) X (main_v58 : DevRef τ sig) = Host.rsqrt (F := Ideal) (s := S50000) (φ := .f32) (X (main_v55 : DevRef τ sig)) := by
  after_results <;> rfl

/-- The scalar zero. -/
theorem cG2_cst_13 (X : Valuation τ sig (Elt Ideal)) :
    after (cG2 (F := Ideal)) X (main_cst_13 : DevRef τ sig) = (constant (F := Ideal) S_ .f32 0x00000000#32) := by
  after_results <;> rfl

/-- The selection. -/
theorem cG3_v59 (X : Valuation τ sig (Elt Ideal)) :
    after (cG3 (F := Ideal)) X (main_v59 : DevRef τ sig) = dinvSel (X (main_v57 : DevRef τ sig)) (X (main_v58 : DevRef τ sig)) (X (main_cst_13 : DevRef τ sig)) := by
  after_results <;> rfl

/-- The edge weights, over whatever normalisation the buffer held. -/
theorem cH_v74 (X : Valuation τ sig (Elt Ideal)) :
    after (cH (F := Ideal)) X (main_v74 : DevRef τ sig) = mulf (F := Ideal) (s := S850000) (φ := .f32) (Host.gather gather_S50000_S850000x1_S850000_n_0_n_n_0_1_1 (X (main_v59 : DevRef τ sig)) (Cert.Spec.wrapIdx (X (main_v50 : DevRef τ sig)))) (Host.gather gather_S50000_S850000x1_S850000_n_0_n_n_0_1_1 (X (main_v59 : DevRef τ sig)) (Cert.Spec.wrapIdx (X (main_v51 : DevRef τ sig)))) := by
  after_results <;> rfl

/-- The second propagation. -/
theorem cI_v90 (X : Valuation τ sig (Elt Ideal)) :
    after (cI (F := Ideal)) X (main_v90 : DevRef τ sig) = Cert.Spec.conv16 (X (main_v48 : DevRef τ sig)) (X (main_arg4 : DevRef τ sig)) (X (main_v50 : DevRef τ sig)) (X (main_v51 : DevRef τ sig)) (X (main_v74 : DevRef τ sig)) := by
  after_results <;> rfl

end Cert.ReferenceIdeal.RefRun

end
-- ==== Proof.RefRunVJ.lean ====
import proofs.«113601_j43069932044897_1_alg».proof.Proof.RefRunChunks

/-!
  The second window's last line, the row-wise log-softmax, one operation at a time: over any contents before
  an operation its result buffer holds the operation's function of what its reads held, and every other buffer
  keeps its contents.  Nested, the fifteen operations leave at the result buffer the log-softmax of what the
  second propagation's buffer held.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]
variable {F : FTy → Type} [FloatOps F]

set_option maxRecDepth 16384
set_option maxHeartbeats 4000000

/-- The log-softmax, operation 1 of 15. -/
abbrev cJ0 : List (HloOp τ sig (Elt F)) :=
  [ StableHlo.TRef.nullary main_call3.cst (constant S_ .f32 0xFF800000#32) ]

/-- The log-softmax, operation 2 of 15. -/
abbrev cJ1 : List (HloOp τ sig (Elt F)) :=
  [ StableHlo.TRef.binary (TRef.of main_v90 : TRef sig ⟨S50000x16, .f32⟩) main_call3.cst main_call3.v0 (fun x v => Host.reduce FloatOps.maximumf x v reducesTo_S50000x16_S50000_d1 h_S_) ]

/-- The log-softmax, operation 3 of 15. -/
abbrev cJ2 : List (HloOp τ sig (Elt F)) :=
  [ StableHlo.TRef.nullary main_call3.cst_0 (constant S_ .f32 0xFF800000#32) ]

/-- The log-softmax, operation 4 of 15. -/
abbrev cJ3 : List (HloOp τ sig (Elt F)) :=
  [ StableHlo.TRef.unary main_call3.cst_0 main_call3.v1 (broadcastInDim S50000 ![] bcast_S_S50000) ]

/-- The log-softmax, operation 5 of 15. -/
abbrev cJ4 : List (HloOp τ sig (Elt F)) :=
  [ StableHlo.TRef.binary main_call3.v1 main_call3.v0 main_call3.v2 maximumf ]

/-- The log-softmax, operation 6 of 15. -/
abbrev cJ5 : List (HloOp τ sig (Elt F)) :=
  [ StableHlo.TRef.unary main_call3.v2 main_call3.v3 (broadcastInDim S50000x1 ![0] bcast_S50000_S50000x1_0) ]

/-- The log-softmax, operation 7 of 15. -/
abbrev cJ6 : List (HloOp τ sig (Elt F)) :=
  [ StableHlo.TRef.unary main_call3.v3 main_call3.v4 (broadcastInDim S50000x16 ![0, 1] bcast_S50000x1_S50000x16_0_1) ]

/-- The log-softmax, operation 8 of 15. -/
abbrev cJ7 : List (HloOp τ sig (Elt F)) :=
  [ StableHlo.TRef.binary (TRef.of main_v90 : TRef sig ⟨S50000x16, .f32⟩) main_call3.v4 main_call3.v5 subf ]

/-- The log-softmax, operation 9 of 15. -/
abbrev cJ8 : List (HloOp τ sig (Elt F)) :=
  [ StableHlo.TRef.unary main_call3.v5 main_call3.v6 Host.exp ]

/-- The log-softmax, operation 10 of 15. -/
abbrev cJ9 : List (HloOp τ sig (Elt F)) :=
  [ StableHlo.TRef.nullary main_call3.cst_1 (constant S_ .f32 0x00000000#32) ]

/-- The log-softmax, operation 11 of 15. -/
abbrev cJ10 : List (HloOp τ sig (Elt F)) :=
  [ StableHlo.TRef.binary main_call3.v6 main_call3.cst_1 main_call3.v7 (fun x v => Host.reduceAdd x v reducesTo_S50000x16_S50000_d1 h_S_) ]

/-- The log-softmax, operation 12 of 15. -/
abbrev cJ11 : List (HloOp τ sig (Elt F)) :=
  [ StableHlo.TRef.unary main_call3.v7 main_call3.v8 (broadcastInDim S50000x1 ![0] bcast_S50000_S50000x1_0) ]

/-- The log-softmax, operation 13 of 15. -/
abbrev cJ12 : List (HloOp τ sig (Elt F)) :=
  [ StableHlo.TRef.unary main_call3.v8 main_call3.v9 Host.log ]

/-- The log-softmax, operation 14 of 15. -/
abbrev cJ13 : List (HloOp τ sig (Elt F)) :=
  [ StableHlo.TRef.unary main_call3.v9 main_call3.v10 (broadcastInDim S50000x16 ![0, 1] bcast_S50000x1_S50000x16_0_1) ]

/-- The log-softmax, operation 15 of 15. -/
abbrev cJ14 : List (HloOp τ sig (Elt F)) :=
  [ StableHlo.TRef.binary main_call3.v5 main_call3.v10 main_call3.v11 subf ]

/-- The line is its operations in turn. -/
theorem cJ_split : (cJ (F := F)) = cJ0 ++ (cJ1 ++ (cJ2 ++ (cJ3 ++ (cJ4 ++ (cJ5 ++ (cJ6 ++ (cJ7 ++ (cJ8 ++ (cJ9 ++ (cJ10 ++ (cJ11 ++ (cJ12 ++ (cJ13 ++ (cJ14)))))))))))))) := rfl

/-- The fold over the line, as its operations' folds nested. -/
theorem after_cJ (X : Valuation τ sig (Elt Ideal)) :
    after (cJ (F := Ideal)) X = after (cJ14 (F := Ideal)) (after (cJ13 (F := Ideal)) (after (cJ12 (F := Ideal)) (after (cJ11 (F := Ideal)) (after (cJ10 (F := Ideal)) (after (cJ9 (F := Ideal)) (after (cJ8 (F := Ideal)) (after (cJ7 (F := Ideal)) (after (cJ6 (F := Ideal)) (after (cJ5 (F := Ideal)) (after (cJ4 (F := Ideal)) (after (cJ3 (F := Ideal)) (after (cJ2 (F := Ideal)) (after (cJ1 (F := Ideal)) (after (cJ0 (F := Ideal)) (X))))))))))))))) := by
  rw [cJ_split]; simp only [after_append]

theorem cJ13_keeps_call3_v5 (X : Valuation τ sig (Elt Ideal)) :
    after (cJ13 (F := Ideal)) X (main_call3_v5 : DevRef τ sig) = X (main_call3_v5 : DevRef τ sig) := by
  after_results_simp

theorem cJ12_keeps_call3_v5 (X : Valuation τ sig (Elt Ideal)) :
    after (cJ12 (F := Ideal)) X (main_call3_v5 : DevRef τ sig) = X (main_call3_v5 : DevRef τ sig) := by
  after_results_simp

theorem cJ11_keeps_call3_v5 (X : Valuation τ sig (Elt Ideal)) :
    after (cJ11 (F := Ideal)) X (main_call3_v5 : DevRef τ sig) = X (main_call3_v5 : DevRef τ sig) := by
  after_results_simp

theorem cJ10_keeps_call3_v5 (X : Valuation τ sig (Elt Ideal)) :
    after (cJ10 (F := Ideal)) X (main_call3_v5 : DevRef τ sig) = X (main_call3_v5 : DevRef τ sig) := by
  after_results_simp

theorem cJ9_keeps_call3_v5 (X : Valuation τ sig (Elt Ideal)) :
    after (cJ9 (F := Ideal)) X (main_call3_v5 : DevRef τ sig) = X (main_call3_v5 : DevRef τ sig) := by
  after_results_simp

theorem cJ9_keeps_call3_v6 (X : Valuation τ sig (Elt Ideal)) :
    after (cJ9 (F := Ideal)) X (main_call3_v6 : DevRef τ sig) = X (main_call3_v6 : DevRef τ sig) := by
  after_results_simp

theorem cJ8_keeps_call3_v5 (X : Valuation τ sig (Elt Ideal)) :
    after (cJ8 (F := Ideal)) X (main_call3_v5 : DevRef τ sig) = X (main_call3_v5 : DevRef τ sig) := by
  after_results_simp

theorem cJ6_keeps_v90 (X : Valuation τ sig (Elt Ideal)) :
    after (cJ6 (F := Ideal)) X (main_v90 : DevRef τ sig) = X (main_v90 : DevRef τ sig) := by
  after_results_simp

theorem cJ5_keeps_v90 (X : Valuation τ sig (Elt Ideal)) :
    after (cJ5 (F := Ideal)) X (main_v90 : DevRef τ sig) = X (main_v90 : DevRef τ sig) := by
  after_results_simp

theorem cJ4_keeps_v90 (X : Valuation τ sig (Elt Ideal)) :
    after (cJ4 (F := Ideal)) X (main_v90 : DevRef τ sig) = X (main_v90 : DevRef τ sig) := by
  after_results_simp

theorem cJ3_keeps_v90 (X : Valuation τ sig (Elt Ideal)) :
    after (cJ3 (F := Ideal)) X (main_v90 : DevRef τ sig) = X (main_v90 : DevRef τ sig) := by
  after_results_simp

theorem cJ3_keeps_call3_v0 (X : Valuation τ sig (Elt Ideal)) :
    after (cJ3 (F := Ideal)) X (main_call3_v0 : DevRef τ sig) = X (main_call3_v0 : DevRef τ sig) := by
  after_results_simp

theorem cJ2_keeps_v90 (X : Valuation τ sig (Elt Ideal)) :
    after (cJ2 (F := Ideal)) X (main_v90 : DevRef τ sig) = X (main_v90 : DevRef τ sig) := by
  after_results_simp

theorem cJ2_keeps_call3_v0 (X : Valuation τ sig (Elt Ideal)) :
    after (cJ2 (F := Ideal)) X (main_call3_v0 : DevRef τ sig) = X (main_call3_v0 : DevRef τ sig) := by
  after_results_simp

theorem cJ1_keeps_v90 (X : Valuation τ sig (Elt Ideal)) :
    after (cJ1 (F := Ideal)) X (main_v90 : DevRef τ sig) = X (main_v90 : DevRef τ sig) := by
  after_results_simp

theorem cJ0_keeps_v90 (X : Valuation τ sig (Elt Ideal)) :
    after (cJ0 (F := Ideal)) X (main_v90 : DevRef τ sig) = X (main_v90 : DevRef τ sig) := by
  after_results_simp

section
attribute [local irreducible] Host.gather Host.scatterAdd concatenate extractStridedSlice shapeCast iotaInDim broadcastInDim Host.rsqrt Host.reduce Host.reduceAdd Host.exp Host.log

/-- The line's one operation, at its reads. -/
theorem cJ0_call3_cst (X : Valuation τ sig (Elt Ideal)) :
    after (cJ0 (F := Ideal)) X (main_call3_cst : DevRef τ sig) = ((constant S_ .f32 0xFF800000#32) : FVec Ideal S_ .f32) := by
  after_results <;> rfl

/-- The line's one operation, at its reads. -/
theorem cJ1_call3_v0 (X : Valuation τ sig (Elt Ideal)) :
    after (cJ1 (F := Ideal)) X (main_call3_v0 : DevRef τ sig) = ((fun x v => Host.reduce FloatOps.maximumf x v reducesTo_S50000x16_S50000_d1 h_S_) (X (main_v90 : DevRef τ sig) : FVec Ideal S50000x16 .f32) (X (main_call3_cst : DevRef τ sig) : FVec Ideal S_ .f32) : FVec Ideal S50000 .f32) := by
  after_results <;> rfl

/-- The line's one operation, at its reads. -/
theorem cJ2_call3_cst_0 (X : Valuation τ sig (Elt Ideal)) :
    after (cJ2 (F := Ideal)) X (main_call3_cst_0 : DevRef τ sig) = ((constant S_ .f32 0xFF800000#32) : FVec Ideal S_ .f32) := by
  after_results <;> rfl

/-- The line's one operation, at its reads. -/
theorem cJ3_call3_v1 (X : Valuation τ sig (Elt Ideal)) :
    after (cJ3 (F := Ideal)) X (main_call3_v1 : DevRef τ sig) = ((broadcastInDim S50000 ![] bcast_S_S50000) (X (main_call3_cst_0 : DevRef τ sig) : FVec Ideal S_ .f32) : FVec Ideal S50000 .f32) := by
  after_results <;> rfl

/-- The line's one operation, at its reads. -/
theorem cJ4_call3_v2 (X : Valuation τ sig (Elt Ideal)) :
    after (cJ4 (F := Ideal)) X (main_call3_v2 : DevRef τ sig) = (maximumf (X (main_call3_v1 : DevRef τ sig) : FVec Ideal S50000 .f32) (X (main_call3_v0 : DevRef τ sig) : FVec Ideal S50000 .f32) : FVec Ideal S50000 .f32) := by
  after_results <;> rfl

/-- The line's one operation, at its reads. -/
theorem cJ5_call3_v3 (X : Valuation τ sig (Elt Ideal)) :
    after (cJ5 (F := Ideal)) X (main_call3_v3 : DevRef τ sig) = ((broadcastInDim S50000x1 ![0] bcast_S50000_S50000x1_0) (X (main_call3_v2 : DevRef τ sig) : FVec Ideal S50000 .f32) : FVec Ideal S50000x1 .f32) := by
  after_results <;> rfl

/-- The line's one operation, at its reads. -/
theorem cJ6_call3_v4 (X : Valuation τ sig (Elt Ideal)) :
    after (cJ6 (F := Ideal)) X (main_call3_v4 : DevRef τ sig) = ((broadcastInDim S50000x16 ![0, 1] bcast_S50000x1_S50000x16_0_1) (X (main_call3_v3 : DevRef τ sig) : FVec Ideal S50000x1 .f32) : FVec Ideal S50000x16 .f32) := by
  after_results <;> rfl

/-- The line's one operation, at its reads. -/
theorem cJ7_call3_v5 (X : Valuation τ sig (Elt Ideal)) :
    after (cJ7 (F := Ideal)) X (main_call3_v5 : DevRef τ sig) = (subf (X (main_v90 : DevRef τ sig) : FVec Ideal S50000x16 .f32) (X (main_call3_v4 : DevRef τ sig) : FVec Ideal S50000x16 .f32) : FVec Ideal S50000x16 .f32) := by
  after_results <;> rfl

/-- The line's one operation, at its reads. -/
theorem cJ8_call3_v6 (X : Valuation τ sig (Elt Ideal)) :
    after (cJ8 (F := Ideal)) X (main_call3_v6 : DevRef τ sig) = (Host.exp (X (main_call3_v5 : DevRef τ sig) : FVec Ideal S50000x16 .f32) : FVec Ideal S50000x16 .f32) := by
  after_results <;> rfl

/-- The line's one operation, at its reads. -/
theorem cJ9_call3_cst_1 (X : Valuation τ sig (Elt Ideal)) :
    after (cJ9 (F := Ideal)) X (main_call3_cst_1 : DevRef τ sig) = ((constant S_ .f32 0x00000000#32) : FVec Ideal S_ .f32) := by
  after_results <;> rfl

/-- The line's one operation, at its reads. -/
theorem cJ10_call3_v7 (X : Valuation τ sig (Elt Ideal)) :
    after (cJ10 (F := Ideal)) X (main_call3_v7 : DevRef τ sig) = ((fun x v => Host.reduceAdd x v reducesTo_S50000x16_S50000_d1 h_S_) (X (main_call3_v6 : DevRef τ sig) : FVec Ideal S50000x16 .f32) (X (main_call3_cst_1 : DevRef τ sig) : FVec Ideal S_ .f32) : FVec Ideal S50000 .f32) := by
  after_results <;> rfl

/-- The line's one operation, at its reads. -/
theorem cJ11_call3_v8 (X : Valuation τ sig (Elt Ideal)) :
    after (cJ11 (F := Ideal)) X (main_call3_v8 : DevRef τ sig) = ((broadcastInDim S50000x1 ![0] bcast_S50000_S50000x1_0) (X (main_call3_v7 : DevRef τ sig) : FVec Ideal S50000 .f32) : FVec Ideal S50000x1 .f32) := by
  after_results <;> rfl

/-- The line's one operation, at its reads. -/
theorem cJ12_call3_v9 (X : Valuation τ sig (Elt Ideal)) :
    after (cJ12 (F := Ideal)) X (main_call3_v9 : DevRef τ sig) = (Host.log (X (main_call3_v8 : DevRef τ sig) : FVec Ideal S50000x1 .f32) : FVec Ideal S50000x1 .f32) := by
  after_results <;> rfl

/-- The line's one operation, at its reads. -/
theorem cJ13_call3_v10 (X : Valuation τ sig (Elt Ideal)) :
    after (cJ13 (F := Ideal)) X (main_call3_v10 : DevRef τ sig) = ((broadcastInDim S50000x16 ![0, 1] bcast_S50000x1_S50000x16_0_1) (X (main_call3_v9 : DevRef τ sig) : FVec Ideal S50000x1 .f32) : FVec Ideal S50000x16 .f32) := by
  after_results <;> rfl

/-- The line's one operation, at its reads. -/
theorem cJ14_v91 (X : Valuation τ sig (Elt Ideal)) :
    after (cJ14 (F := Ideal)) X (main_v91 : DevRef τ sig) = (subf (X (main_call3_v5 : DevRef τ sig) : FVec Ideal S50000x16 .f32) (X (main_call3_v10 : DevRef τ sig) : FVec Ideal S50000x16 .f32) : FVec Ideal S50000x16 .f32) := by
  after_results <;> rfl

/-- The row-wise log-softmax of what the second propagation's buffer held. -/
theorem cJ_v91 (X : Valuation τ sig (Elt Ideal)) :
    after (cJ (F := Ideal)) X (main_v91 : DevRef τ sig) = Cert.Spec.logsm (X (main_v90 : DevRef τ sig)) := by
  rw [after_cJ,
    cJ14_v91, cJ13_keeps_call3_v5, cJ13_call3_v10, cJ12_keeps_call3_v5, cJ12_call3_v9, cJ11_keeps_call3_v5,
    cJ11_call3_v8, cJ10_keeps_call3_v5, cJ10_call3_v7, cJ9_keeps_call3_v5, cJ9_keeps_call3_v6,
    cJ9_call3_cst_1, cJ8_keeps_call3_v5, cJ8_call3_v6, cJ7_call3_v5, cJ6_keeps_v90, cJ6_call3_v4,
    cJ5_keeps_v90, cJ5_call3_v3, cJ4_keeps_v90, cJ4_call3_v2, cJ3_keeps_v90, cJ3_call3_v1,
    cJ3_keeps_call3_v0, cJ2_keeps_v90, cJ2_call3_cst_0, cJ2_keeps_call3_v0, cJ1_keeps_v90, cJ1_call3_v0,
    cJ0_keeps_v90, cJ0_call3_cst]
  rfl
end

end Cert.ReferenceIdeal.RefRun

end
-- ==== Proof.RefRun.lean ====
import proofs.«113601_j43069932044897_1_alg».proof.Proof.RefRunV0
import proofs.«113601_j43069932044897_1_alg».proof.Proof.RefRunV1
import proofs.«113601_j43069932044897_1_alg».proof.Proof.RefRunVJ

/-!
  What the reference computes.  The fold of the first window's operations leaves, at the hidden layer's
  buffer, the leaky rectifier of the first propagation, at the two buffers holding the rows of the edge
  list those rows flattened, and every argument as it was; the fold of the second window's operations over
  any contents leaves, at the result buffer, the row-wise log-softmax of the second propagation of what the
  hidden layer's buffer held, and every argument as it was.  Composed, the result buffer holds the network
  of the six arguments, and every fair run of the reference ends there with its arguments unchanged.
-/

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable [Cert.ReferenceIdeal.Facts]

section
set_option maxRecDepth 16384
set_option maxHeartbeats 4000000

/-! No operation of either window writes an argument. -/

theorem w0_arg0 (V : Valuation τ sig (Elt Ideal)) :
    after (ops0 (F := Ideal)) V (main_arg0 : DevRef τ sig) = V (main_arg0 : DevRef τ sig) := by
  after_results_simp

theorem w0_arg1 (V : Valuation τ sig (Elt Ideal)) :
    after (ops0 (F := Ideal)) V (main_arg1 : DevRef τ sig) = V (main_arg1 : DevRef τ sig) := by
  after_results_simp

theorem w0_arg2 (V : Valuation τ sig (Elt Ideal)) :
    after (ops0 (F := Ideal)) V (main_arg2 : DevRef τ sig) = V (main_arg2 : DevRef τ sig) := by
  after_results_simp

theorem w0_arg3 (V : Valuation τ sig (Elt Ideal)) :
    after (ops0 (F := Ideal)) V (main_arg3 : DevRef τ sig) = V (main_arg3 : DevRef τ sig) := by
  after_results_simp

theorem w0_arg4 (V : Valuation τ sig (Elt Ideal)) :
    after (ops0 (F := Ideal)) V (main_arg4 : DevRef τ sig) = V (main_arg4 : DevRef τ sig) := by
  after_results_simp

theorem w0_arg5 (V : Valuation τ sig (Elt Ideal)) :
    after (ops0 (F := Ideal)) V (main_arg5 : DevRef τ sig) = V (main_arg5 : DevRef τ sig) := by
  after_results_simp

theorem w1_arg0 (W : Valuation τ sig (Elt Ideal)) :
    after (ops1 (F := Ideal)) W (main_arg0 : DevRef τ sig) = W (main_arg0 : DevRef τ sig) := by
  after_results_simp

theorem w1_arg1 (W : Valuation τ sig (Elt Ideal)) :
    after (ops1 (F := Ideal)) W (main_arg1 : DevRef τ sig) = W (main_arg1 : DevRef τ sig) := by
  after_results_simp

theorem w1_arg2 (W : Valuation τ sig (Elt Ideal)) :
    after (ops1 (F := Ideal)) W (main_arg2 : DevRef τ sig) = W (main_arg2 : DevRef τ sig) := by
  after_results_simp

theorem w1_arg3 (W : Valuation τ sig (Elt Ideal)) :
    after (ops1 (F := Ideal)) W (main_arg3 : DevRef τ sig) = W (main_arg3 : DevRef τ sig) := by
  after_results_simp

theorem w1_arg4 (W : Valuation τ sig (Elt Ideal)) :
    after (ops1 (F := Ideal)) W (main_arg4 : DevRef τ sig) = W (main_arg4 : DevRef τ sig) := by
  after_results_simp

theorem w1_arg5 (W : Valuation τ sig (Elt Ideal)) :
    after (ops1 (F := Ideal)) W (main_arg5 : DevRef τ sig) = W (main_arg5 : DevRef τ sig) := by
  after_results_simp

/-- The selection over the comparison and the reciprocal square root of one degree vector is the masked
    reciprocal square root. -/
theorem dinvSel_eq (deg : FVec Ideal S50000 .f32) :
    dinvSel (cmpf .ogt deg (broadcastInDim S50000 ![] bcast_S_S50000 (constant (F := Ideal) S_ .f32 0x00000000#32))) (Host.rsqrt deg) (constant (F := Ideal) S_ .f32 0x00000000#32)
      = Cert.Spec.dinvOf deg := rfl

/-- The rectifier with the literal slope is the network's. -/
theorem leakySel_eq (h : FVec Ideal S50000x100 .f32) :
    leakySel h (constant (F := Ideal) S_ .f32 0x3C23D70A#32) = Cert.Spec.leaky h := rfl

/-- The first window: the hidden layer's buffer. -/
theorem w0_hidden (V : Valuation τ sig (Elt Ideal)) :
    after (ops0 (F := Ideal)) V (main_v47 : DevRef τ sig)
      = Cert.Spec.leaky (Cert.Spec.conv100 (Cert.Spec.dense1 (V (main_arg0 : DevRef τ sig)) (V (main_arg1 : DevRef τ sig))) (V (main_arg2 : DevRef τ sig))
          (Cert.Spec.srcOf (V (main_arg5 : DevRef τ sig))) (Cert.Spec.dstOf (V (main_arg5 : DevRef τ sig)))
          (Cert.Spec.nrmOf (Cert.Spec.srcOf (V (main_arg5 : DevRef τ sig))) (Cert.Spec.dstOf (V (main_arg5 : DevRef τ sig))))) := by
  rw [after_ops0,
    cE2_v47, cE1_keeps_v46, cE1_cst_9, cD_v46, cC_keeps_v4, cC_keeps_arg2, cC_keeps_v6, cC_keeps_v7, cC_v30,
    cB3_keeps_v4, cB3_keeps_arg2, cB3_keeps_v6, cB3_keeps_v7, cB3_v15, cB2_keeps_v4, cB2_keeps_arg2,
    cB2_keeps_v6, cB2_keeps_v7, cB2_v13, cB2_v14, cB2_cst_2, cB1_keeps_v4, cB1_keeps_arg2, cB1_keeps_v6,
    cB1_keeps_v7, cB1_v11, cA_v4, cA_keeps_arg2, cA_v6, cA_v7,
    dinvSel_eq, leakySel_eq]
  rfl

/-- The first window: row 0 of the edge list, flattened. -/
theorem w0_src (V : Valuation τ sig (Elt Ideal)) :
    after (ops0 (F := Ideal)) V (main_v1 : DevRef τ sig) = (fun i => shapeCast S800000 (extractStridedSlice S1x800000 ![0, 0] (V (main_arg5 : DevRef τ sig)) slices_S2x800000_S1x800000_0_0) shapeCasts_S1x800000_S800000 i) := by
  rw [after_ops0,
    cE2_keeps_v1, cE1_keeps_v1, cD_keeps_v1, cC_keeps_v1, cB3_keeps_v1, cB2_keeps_v1, cB1_keeps_v1, cA_v1]

/-- The first window: row 1 of the edge list, flattened. -/
theorem w0_dst (V : Valuation τ sig (Elt Ideal)) :
    after (ops0 (F := Ideal)) V (main_v3 : DevRef τ sig) = (fun i => shapeCast S800000 (extractStridedSlice S1x800000 ![1, 0] (V (main_arg5 : DevRef τ sig)) slices_S2x800000_S1x800000_1_0) shapeCasts_S1x800000_S800000 i) := by
  rw [after_ops0,
    cE2_keeps_v3, cE1_keeps_v3, cD_keeps_v3, cC_keeps_v3, cB3_keeps_v3, cB2_keeps_v3, cB1_keeps_v3, cA_v3]

/-- The second window over any contents: the result buffer. -/
theorem w1_out (W : Valuation τ sig (Elt Ideal)) :
    after (ops1 (F := Ideal)) W (main_v91 : DevRef τ sig)
      = Cert.Spec.logsm (Cert.Spec.conv16 (Cert.Spec.dense2 (W (main_v47 : DevRef τ sig)) (W (main_arg3 : DevRef τ sig))) (W (main_arg4 : DevRef τ sig))
          (concatenate S850000 0 [⟨S800000, W (main_v1 : DevRef τ sig)⟩, ⟨S50000, iotaInDim S50000 32 0⟩] concatenates_S800000_S50000_S850000_d0)
          (concatenate S850000 0 [⟨S800000, W (main_v3 : DevRef τ sig)⟩, ⟨S50000, iotaInDim S50000 32 0⟩] concatenates_S800000_S50000_S850000_d0)
          (Cert.Spec.nrmOf
            (concatenate S850000 0 [⟨S800000, W (main_v1 : DevRef τ sig)⟩, ⟨S50000, iotaInDim S50000 32 0⟩] concatenates_S800000_S50000_S850000_d0)
            (concatenate S850000 0 [⟨S800000, W (main_v3 : DevRef τ sig)⟩, ⟨S50000, iotaInDim S50000 32 0⟩] concatenates_S800000_S50000_S850000_d0))) := by
  rw [after_ops1,
    cJ_v91, cI_v90, cH_keeps_v48, cH_keeps_arg4, cH_keeps_v50, cH_keeps_v51, cH_v74, cG3_keeps_v48,
    cG3_keeps_arg4, cG3_keeps_v50, cG3_keeps_v51, cG3_v59, cG2_keeps_v48, cG2_keeps_arg4, cG2_keeps_v50,
    cG2_keeps_v51, cG2_v57, cG2_v58, cG2_cst_13, cG1_keeps_v48, cG1_keeps_arg4, cG1_keeps_v50, cG1_keeps_v51,
    cG1_v55, cF_v48, cF_keeps_arg4, cF_v50, cF_v51,
    dinvSel_eq]
  rfl
end

/-- The fold over all of @main, as the two windows' folds nested. -/
theorem after_ops (V : Valuation τ sig (Elt Ideal)) :
    after (ops (F := Ideal)) V = after (ops1 (F := Ideal)) (after (ops0 (F := Ideal)) V) :=
  after_append _ _ _

/-- After @main the result buffer holds the network of the six arguments' contents. -/
theorem out_eq (V : Valuation τ sig (Elt Ideal)) :
    after (ops (F := Ideal)) V (main_v91 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops, w1_out, w0_hidden, w0_src, w0_dst, w0_arg3, w0_arg4]
  rfl

theorem arg0_eq (V : Valuation τ sig (Elt Ideal)) :
    after (ops (F := Ideal)) V (main_arg0 : DevRef τ sig) = V (main_arg0 : DevRef τ sig) := by
  rw [after_ops, w1_arg0, w0_arg0]

theorem arg1_eq (V : Valuation τ sig (Elt Ideal)) :
    after (ops (F := Ideal)) V (main_arg1 : DevRef τ sig) = V (main_arg1 : DevRef τ sig) := by
  rw [after_ops, w1_arg1, w0_arg1]

theorem arg2_eq (V : Valuation τ sig (Elt Ideal)) :
    after (ops (F := Ideal)) V (main_arg2 : DevRef τ sig) = V (main_arg2 : DevRef τ sig) := by
  rw [after_ops, w1_arg2, w0_arg2]

theorem arg3_eq (V : Valuation τ sig (Elt Ideal)) :
    after (ops (F := Ideal)) V (main_arg3 : DevRef τ sig) = V (main_arg3 : DevRef τ sig) := by
  rw [after_ops, w1_arg3, w0_arg3]

theorem arg4_eq (V : Valuation τ sig (Elt Ideal)) :
    after (ops (F := Ideal)) V (main_arg4 : DevRef τ sig) = V (main_arg4 : DevRef τ sig) := by
  rw [after_ops, w1_arg4, w0_arg4]

theorem arg5_eq (V : Valuation τ sig (Elt Ideal)) :
    after (ops (F := Ideal)) V (main_arg5 : DevRef τ sig) = V (main_arg5 : DevRef τ sig) := by
  rw [after_ops, w1_arg5, w0_arg5]

/-- From any memory with zero counters every fair run of the reference terminates, the result buffer holding the
    network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v91).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main m ρ)

end Cert.ReferenceIdeal.RefRun

end
-- ==== Proof.lean ====
/-
  A two-layer graph-convolution network with a row-wise log-softmax, computed two ways over the extended reals.

  Both programs build, from the edge list, the sources and targets (each followed by the self loops), the node degrees
  (ones scatter-added at the targets), dinv = deg^(-1/2) where the degree is positive and 0 elsewhere, and the edge weights
  dinv(source) · dinv(target); a propagation gathers the source rows of a feature matrix, scales them by the edge weights,
  scatter-adds them at the targets and adds a bias row.  The result is
      log-softmax ( propagate ( leaky ( propagate (x · W1) + b1 ) · W2 ) + b2 ).

  The reference does all of it with whole-array host operations (Proof/RefRun.lean reads its run back as Cert.Spec.out of
  the arguments).  The kernel program does the gathers and scatter-adds on the host as well, and computes the two
  products, the leaky rectifier and the log-softmax in four tiled regions of ten row blocks each (5000 rows per block):
    * a block of a product is the product of the block's rows, the contraction a plain sum over the inner axis on both
      sides (rounding the factors to bf16 first changes nothing over the extended reals);
    * the rectifier is element-wise; "v > 0 ? v : v · 0.01" and "v ≥ 0 ? v : 0.01 · v" agree everywhere (at 0 both are 0);
    * the log-softmax is row-wise, and a block holds whole rows; a maximum taken from -∞ is unchanged by one more
      maximum with -∞.
  Since the blocks tile the row axis, each region leaves a whole-array function of the arrays it finds
  (Proof/KDense*.lean, KLeaky.lean, KSoftmax.lean); Proof/KHost.lean threads these through the host stretches between the
  regions, and Proof/KRun.lean is the run of the nine segments.  No law used needs the inputs to be finite: the
  precondition is not opened.  The idealization rewrote nothing, so there is nothing to preserve.
-/
import proofs.«113601_j43069932044897_1_alg».proof.Defs
import proofs.«113601_j43069932044897_1_alg».proof.Proof.Gen.Kernel
import proofs.«113601_j43069932044897_1_alg».proof.Proof.Gen.Kernel.Frame
import proofs.«113601_j43069932044897_1_alg».proof.Proof.Gen.KernelIdeal
import proofs.«113601_j43069932044897_1_alg».proof.Proof.Gen.KernelIdeal.Frame
import proofs.«113601_j43069932044897_1_alg».proof.Proof.Gen.ReferenceIdeal
import proofs.«113601_j43069932044897_1_alg».proof.Proof.Gen.Pre_finite_inputs
import proofs.«113601_j43069932044897_1_alg».proof.Proof.Spec
import proofs.«113601_j43069932044897_1_alg».proof.Proof.KRun
import proofs.«113601_j43069932044897_1_alg».proof.Proof.KHost
import proofs.«113601_j43069932044897_1_alg».proof.Proof.KDense
import proofs.«113601_j43069932044897_1_alg».proof.Proof.KLeaky
import proofs.«113601_j43069932044897_1_alg».proof.Proof.KSoftmax
import proofs.«113601_j43069932044897_1_alg».proof.Proof.RefRun
import Idealize.ShloMosaic.Adequacy
import Idealize.ShloMosaic.Init

noncomputable section

namespace Cert.Proof

open Idealize.ShloMosaic Idealize.SL.Sem

/-- The three programs run, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The idealized kernel program is the kernel program's own text: nothing was rewritten. -/
theorem preserves : Cert.preserves_Kernel_KernelIdeal := trivial

/-- Both idealized programs end with the network's value of the (agreeing) arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KVal.result9 m ρ c Cert.KernelIdeal.KVal.final0
        Cert.KernelIdeal.KVal.final1 Cert.KernelIdeal.KVal.final2 Cert.KernelIdeal.KVal.final3), (h c).2⟩)
      (Cert.KernelIdeal.KVal.run_fold (F := Ideal) m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
